-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x1 : Shape := ⟨2, ![1000000, 1]⟩
abbrev S60x2 : Shape := ⟨2, ![60, 2]⟩
abbrev S60 : Shape := ⟨1, ![60]⟩
abbrev S60x60 : Shape := ⟨2, ![60, 60]⟩
abbrev S1x60 : Shape := ⟨2, ![1, 60]⟩
abbrev S1 : Shape := ⟨1, ![1]⟩
abbrev S_ : Shape := ⟨0, ![]⟩

class Facts : Prop where
  bcast_S_S1000000x1 : S_.BroadcastsInDim S1000000x1 (![] : Fin 0 → Fin S1000000x1.rank)
  reducesTo_S1000000x1_S_d0_1 : S1000000x1.ReducesTo [0, 1] S_
  h_S_ : 0 < S_.numel
  bcast_S_S60x2 : S_.BroadcastsInDim S60x2 (![] : Fin 0 → Fin S60x2.rank)
  reducesTo_S60x2_S_d0_1 : S60x2.ReducesTo [0, 1] S_
  bcast_S_S60 : S_.BroadcastsInDim S60 (![] : Fin 0 → Fin S60.rank)
  reducesTo_S60_S_d0 : S60.ReducesTo [0] S_
  bcast_S_S60x60 : S_.BroadcastsInDim S60x60 (![] : Fin 0 → Fin S60x60.rank)
  reducesTo_S60x60_S_d0_1 : S60x60.ReducesTo [0, 1] S_
  bcast_S_S1x60 : S_.BroadcastsInDim S1x60 (![] : Fin 0 → Fin S1x60.rank)
  reducesTo_S1x60_S_d0_1 : S1x60.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg14 : FVec F S1x60 .f32) (main_arg15 : FVec F S1 .f32) (main_v63 : IVec S_ 1) (main_v67 : IVec S_ 1) : IVec S_ 1 :=
  let main_v68 : IVec S_ 1 := andi main_v63 main_v67
  let main_v69 : FVec F S1x60 .f32 := Host.absf main_arg14
  let main_cst_26 : FVec F S_ .f32 := constant S_ .f32 0x7F800000#32
  let main_v70 : FVec F S1x60 .f32 := broadcastInDim S1x60 ![] bcast_S_S1x60 main_cst_26
  let main_v71 : IVec S1x60 1 := cmpf .olt main_v69 main_v70
  let main_c_27 : IVec S_ 1 := constantI S_ 1 1#1
  let main_v72 : IVec S_ 1 := (fun x v => Host.reduce IntOp.andi x v reducesTo_S1x60_S_d0_1 h_S_) main_v71 main_c_27
  let main_v73 : IVec S_ 1 := andi main_v68 main_v72
  let main_v74 : FVec F S1 .f32 := Host.absf main_arg15
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  main_v78

def fn_part3 {F : FTy → Type} [FloatOps F] (main_arg11 : FVec F S60 .f32) (main_arg12 : FVec F S60x60 .f32) (main_arg13 : FVec F S60 .f32) (main_arg14 : FVec F S1x60 .f32) (main_arg15 : FVec F S1 .f32) (main_v48 : IVec S_ 1) (main_v49 : FVec F S60x60 .f32) (main_v50 : FVec F S60x60 .f32) : IVec S_ 1 :=
  let main_v51 : IVec S60x60 1 := cmpf .olt main_v49 main_v50
  let main_c_19 : IVec S_ 1 := constantI S_ 1 1#1
  let main_v52 : IVec S_ 1 := (fun x v => Host.reduce IntOp.andi x v reducesTo_S60x60_S_d0_1 h_S_) main_v51 main_c_19
  let main_v53 : IVec S_ 1 := andi main_v48 main_v52
  let main_v54 : FVec F S60 .f32 := Host.absf main_arg11
  let main_cst_20 : FVec F S_ .f32 := constant S_ .f32 0x7F800000#32
  let main_v55 : FVec F S60 .f32 := broadcastInDim S60 ![] bcast_S_S60 main_cst_20
  let main_v56 : IVec S60 1 := cmpf .olt main_v54 main_v55
  let main_c_21 : IVec S_ 1 := constantI S_ 1 1#1
  let main_v57 : IVec S_ 1 := (fun x v => Host.reduce IntOp.andi x v reducesTo_S60_S_d0 h_S_) main_v56 main_c_21
  let main_v58 : IVec S_ 1 := andi main_v53 main_v57
  let main_v59 : FVec F S60x60 .f32 := Host.absf main_arg12
  let main_cst_22 : FVec F S_ .f32 := constant S_ .f32 0x7F800000#32
  let main_v60 : FVec F S60x60 .f32 := broadcastInDim S60x60 ![] bcast_S_S60x60 main_cst_22
  let main_v61 : IVec S60x60 1 := cmpf .olt main_v59 main_v60
  let main_c_23 : IVec S_ 1 := constantI S_ 1 1#1
  let main_v62 : IVec S_ 1 := (fun x v => Host.reduce IntOp.andi x v reducesTo_S60x60_S_d0_1 h_S_) main_v61 main_c_23
  let main_v63 : IVec S_ 1 := andi main_v58 main_v62
  let main_v64 : FVec F S60 .f32 := Host.absf main_arg13
  let main_cst_24 : FVec F S_ .f32 := constant S_ .f32 0x7F800000#32
  let main_v65 : FVec F S60 .f32 := broadcastInDim S60 ![] bcast_S_S60 main_cst_24
  let main_v66 : IVec S60 1 := cmpf .olt main_v64 main_v65
  let main_c_25 : IVec S_ 1 := constantI S_ 1 1#1
  let main_v67 : IVec S_ 1 := (fun x v => Host.reduce IntOp.andi x v reducesTo_S60_S_d0 h_S_) main_v66 main_c_25
  fn_part4 (F := F) main_arg14 main_arg15 main_v63 main_v67

def fn_part2 {F : FTy → Type} [FloatOps F] (main_arg7 : FVec F S60 .f32) (main_arg8 : FVec F S60x60 .f32) (main_arg9 : FVec F S60 .f32) (main_arg10 : FVec F S60x60 .f32) (main_arg11 : FVec F S60 .f32) (main_arg12 : FVec F S60x60 .f32) (main_arg13 : FVec F S60 .f32) (main_arg14 : FVec F S1x60 .f32) (main_arg15 : FVec F S1 .f32) (main_v33 : IVec S_ 1) : IVec S_ 1 :=
  let main_v34 : FVec F S60 .f32 := Host.absf main_arg7
  let main_cst_12 : FVec F S_ .f32 := constant S_ .f32 0x7F800000#32
  let main_v35 : FVec F S60 .f32 := broadcastInDim S60 ![] bcast_S_S60 main_cst_12
  let main_v36 : IVec S60 1 := cmpf .olt main_v34 main_v35
  let main_c_13 : IVec S_ 1 := constantI S_ 1 1#1
  let main_v37 : IVec S_ 1 := (fun x v => Host.reduce IntOp.andi x v reducesTo_S60_S_d0 h_S_) main_v36 main_c_13
  let main_v38 : IVec S_ 1 := andi main_v33 main_v37
  let main_v39 : FVec F S60x60 .f32 := Host.absf main_arg8
  let main_cst_14 : FVec F S_ .f32 := constant S_ .f32 0x7F800000#32
  let main_v40 : FVec F S60x60 .f32 := broadcastInDim S60x60 ![] bcast_S_S60x60 main_cst_14
  let main_v41 : IVec S60x60 1 := cmpf .olt main_v39 main_v40
  let main_c_15 : IVec S_ 1 := constantI S_ 1 1#1
  let main_v42 : IVec S_ 1 := (fun x v => Host.reduce IntOp.andi x v reducesTo_S60x60_S_d0_1 h_S_) main_v41 main_c_15
  let main_v43 : IVec S_ 1 := andi main_v38 main_v42
  let main_v44 : FVec F S60 .f32 := Host.absf main_arg9
  let main_cst_16 : FVec F S_ .f32 := constant S_ .f32 0x7F800000#32
  let main_v45 : FVec F S60 .f32 := broadcastInDim S60 ![] bcast_S_S60 main_cst_16
  let main_v46 : IVec S60 1 := cmpf .olt main_v44 main_v45
  let main_c_17 : IVec S_ 1 := constantI S_ 1 1#1
  let main_v47 : IVec S_ 1 := (fun x v => Host.reduce IntOp.andi x v reducesTo_S60_S_d0 h_S_) main_v46 main_c_17
  let main_v48 : IVec S_ 1 := andi main_v43 main_v47
  let main_v49 : FVec F S60x60 .f32 := Host.absf main_arg10
  let main_cst_18 : FVec F S_ .f32 := constant S_ .f32 0x7F800000#32
  let main_v50 : FVec F S60x60 .f32 := broadcastInDim S60x60 ![] bcast_S_S60x60 main_cst_18
  fn_part3 (F := F) main_arg11 main_arg12 main_arg13 main_arg14 main_arg15 main_v48 main_v49 main_v50

def fn_part1 {F : FTy → Type} [FloatOps F] (main_arg4 : FVec F S60x60 .f32) (main_arg5 : FVec F S60 .f32) (main_arg6 : FVec F S60x60 .f32) (main_arg7 : FVec F S60 .f32) (main_arg8 : FVec F S60x60 .f32) (main_arg9 : FVec F S60 .f32) (main_arg10 : FVec F S60x60 .f32) (main_arg11 : FVec F S60 .f32) (main_arg12 : FVec F S60x60 .f32) (main_arg13 : FVec F S60 .f32) (main_arg14 : FVec F S1x60 .f32) (main_arg15 : FVec F S1 .f32) (main_v13 : IVec S_ 1) (main_v16 : IVec S60 1) : IVec S_ 1 :=
  let main_c_5 : IVec S_ 1 := constantI S_ 1 1#1
  let main_v17 : IVec S_ 1 := (fun x v => Host.reduce IntOp.andi x v reducesTo_S60_S_d0 h_S_) main_v16 main_c_5
  let main_v18 : IVec S_ 1 := andi main_v13 main_v17
  let main_v19 : FVec F S60x60 .f32 := Host.absf main_arg4
  let main_cst_6 : FVec F S_ .f32 := constant S_ .f32 0x7F800000#32
  let main_v20 : FVec F S60x60 .f32 := broadcastInDim S60x60 ![] bcast_S_S60x60 main_cst_6
  let main_v21 : IVec S60x60 1 := cmpf .olt main_v19 main_v20
  let main_c_7 : IVec S_ 1 := constantI S_ 1 1#1
  let main_v22 : IVec S_ 1 := (fun x v => Host.reduce IntOp.andi x v reducesTo_S60x60_S_d0_1 h_S_) main_v21 main_c_7
  let main_v23 : IVec S_ 1 := andi main_v18 main_v22
  let main_v24 : FVec F S60 .f32 := Host.absf main_arg5
  let main_cst_8 : FVec F S_ .f32 := constant S_ .f32 0x7F800000#32
  let main_v25 : FVec F S60 .f32 := broadcastInDim S60 ![] bcast_S_S60 main_cst_8
  let main_v26 : IVec S60 1 := cmpf .olt main_v24 main_v25
  let main_c_9 : IVec S_ 1 := constantI S_ 1 1#1
  let main_v27 : IVec S_ 1 := (fun x v => Host.reduce IntOp.andi x v reducesTo_S60_S_d0 h_S_) main_v26 main_c_9
  let main_v28 : IVec S_ 1 := andi main_v23 main_v27
  let main_v29 : FVec F S60x60 .f32 := Host.absf main_arg6
  let main_cst_10 : FVec F S_ .f32 := constant S_ .f32 0x7F800000#32
  let main_v30 : FVec F S60x60 .f32 := broadcastInDim S60x60 ![] bcast_S_S60x60 main_cst_10
  let main_v31 : IVec S60x60 1 := cmpf .olt main_v29 main_v30
  let main_c_11 : IVec S_ 1 := constantI S_ 1 1#1
  let main_v32 : IVec S_ 1 := (fun x v => Host.reduce IntOp.andi x v reducesTo_S60x60_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S1000000x1 .f32) (main_arg1 : FVec F S1000000x1 .f32) (main_arg2 : FVec F S60x2 .f32) (main_arg3 : FVec F S60 .f32) (main_arg4 : FVec F S60x60 .f32) (main_arg5 : FVec F S60 .f32) (main_arg6 : FVec F S60x60 .f32) (main_arg7 : FVec F S60 .f32) (main_arg8 : FVec F S60x60 .f32) (main_arg9 : FVec F S60 .f32) (main_arg10 : FVec F S60x60 .f32) (main_arg11 : FVec F S60 .f32) (main_arg12 : FVec F S60x60 .f32) (main_arg13 : FVec F S60 .f32) (main_arg14 : FVec F S1x60 .f32) (main_arg15 : FVec F S1 .f32) : IVec S_ 1 :=
  let main_v0 : FVec F S1000000x1 .f32 := Host.absf main_arg0
  let main_cst : FVec F S_ .f32 := constant S_ .f32 0x7F800000#32
  let main_v1 : FVec F S1000000x1 .f32 := broadcastInDim S1000000x1 ![] bcast_S_S1000000x1 main_cst
  let main_v2 : IVec S1000000x1 1 := cmpf .olt main_v0 main_v1
  let main_c : IVec S_ 1 := constantI S_ 1 1#1
  let main_v3 : IVec S_ 1 := (fun x v => Host.reduce IntOp.andi x v reducesTo_S1000000x1_S_d0_1 h_S_) main_v2 main_c
  let main_v4 : FVec F S1000000x1 .f32 := Host.absf main_arg1
  let main_cst_0 : FVec F S_ .f32 := constant S_ .f32 0x7F800000#32
  let main_v5 : FVec F S1000000x1 .f32 := broadcastInDim S1000000x1 ![] bcast_S_S1000000x1 main_cst_0
  let main_v6 : IVec S1000000x1 1 := cmpf .olt main_v4 main_v5
  let main_c_1 : IVec S_ 1 := constantI S_ 1 1#1
  let main_v7 : IVec S_ 1 := (fun x v => Host.reduce IntOp.andi x v reducesTo_S1000000x1_S_d0_1 h_S_) main_v6 main_c_1
  let main_v8 : IVec S_ 1 := andi main_v3 main_v7
  let main_v9 : FVec F S60x2 .f32 := Host.absf main_arg2
  let main_cst_2 : FVec F S_ .f32 := constant S_ .f32 0x7F800000#32
  let main_v10 : FVec F S60x2 .f32 := broadcastInDim S60x2 ![] bcast_S_S60x2 main_cst_2
  let main_v11 : IVec S60x2 1 := cmpf .olt main_v9 main_v10
  let main_c_3 : IVec S_ 1 := constantI S_ 1 1#1
  let main_v12 : IVec S_ 1 := (fun x v => Host.reduce IntOp.andi x v reducesTo_S60x2_S_d0_1 h_S_) main_v11 main_c_3
  let main_v13 : IVec S_ 1 := andi main_v8 main_v12
  let main_v14 : FVec F S60 .f32 := Host.absf main_arg3
  let main_cst_4 : FVec F S_ .f32 := constant S_ .f32 0x7F800000#32
  let main_v15 : FVec F S60 .f32 := broadcastInDim S60 ![] bcast_S_S60 main_cst_4
  let main_v16 : IVec S60 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S1000000x1 : Shape := ⟨2, ![1000000, 1]⟩
abbrev S60x2 : Shape := ⟨2, ![60, 2]⟩
abbrev S60 : Shape := ⟨1, ![60]⟩
abbrev S60x60 : Shape := ⟨2, ![60, 60]⟩
abbrev S1x60 : Shape := ⟨2, ![1, 60]⟩
abbrev S1 : Shape := ⟨1, ![1]⟩
abbrev S1x1000000 : Shape := ⟨2, ![1, 1000000]⟩
abbrev S_ : Shape := ⟨0, ![]⟩
abbrev S1x1015808 : Shape := ⟨2, ![1, 1015808]⟩
abbrev S60x1 : Shape := ⟨2, ![60, 1]⟩
abbrev S1x1 : Shape := ⟨2, ![1, 1]⟩
abbrev S1x16384 : Shape := ⟨2, ![1, 16384]⟩
abbrev S2x16384 : Shape := ⟨2, ![2, 16384]⟩
abbrev S60x16384 : Shape := ⟨2, ![60, 16384]⟩

abbrev nBuf : Space → Nat
  | .hbm => 39
  | .vmem => 20
  | .smem => 0
  | _ => 0

abbrev bufTy : (tb : Table) → Fin (tcTables nBuf tb) → BufTy
  | .hbm, ⟨0, _⟩ => ⟨S1000000x1, .f32⟩
  | .hbm, ⟨1, _⟩ => ⟨S1000000x1, .f32⟩
  | .hbm, ⟨2, _⟩ => ⟨S60x2, .f32⟩
  | .hbm, ⟨3, _⟩ => ⟨S60, .f32⟩
  | .hbm, ⟨4, _⟩ => ⟨S60x60, .f32⟩
  | .hbm, ⟨5, _⟩ => ⟨S60, .f32⟩
  | .hbm, ⟨6, _⟩ => ⟨S60x60, .f32⟩
  | .hbm, ⟨7, _⟩ => ⟨S60, .f32⟩
  | .hbm, ⟨8, _⟩ => ⟨S60x60, .f32⟩
  | .hbm, ⟨9, _⟩ => ⟨S60, .f32⟩
  | .hbm, ⟨10, _⟩ => ⟨S60x60, .f32⟩
  | .hbm, ⟨11, _⟩ => ⟨S60, .f32⟩
  | .hbm, ⟨12, _⟩ => ⟨S60x60, .f32⟩
  | .hbm, ⟨13, _⟩ => ⟨S60, .f32⟩
  | .hbm, ⟨14, _⟩ => ⟨S1x60, .f32⟩
  | .hbm, ⟨15, _⟩ => ⟨S1, .f32⟩
  | .hbm, ⟨16, _⟩ => ⟨S1x1000000, .f32⟩
  | .hbm, ⟨17, _⟩ => ⟨S_, .i32⟩
  | .hbm, ⟨18, _⟩ => ⟨S_, .f32⟩
  | .hbm, ⟨19, _⟩ => ⟨S1x1015808, .f32⟩
  | .hbm, ⟨20, _⟩ => ⟨S1x1000000, .f32⟩
  | .hbm, ⟨21, _⟩ => ⟨S_, .i32⟩
  | .hbm, ⟨22, _⟩ => ⟨S_, .f32⟩
  | .hbm, ⟨23, _⟩ => ⟨S1x1015808, .f32⟩
  | .hbm, ⟨24, _⟩ => ⟨S60x1, .f32⟩
  | .hbm, ⟨25, _⟩ => ⟨S60x1, .f32⟩
  | .hbm, ⟨26, _⟩ => ⟨S60x1, .f32⟩
  | .hbm, ⟨27, _⟩ => ⟨S60x1, .f32⟩
  | .hbm, ⟨28, _⟩ => ⟨S60x1, .f32⟩
  | .hbm, ⟨29, _⟩ => ⟨S60x1, .f32⟩
  | .hbm, ⟨30, _⟩ => ⟨S1x1, .f32⟩
  | .hbm, ⟨31, _⟩ => ⟨S60x60, .bf16⟩
  | .hbm, ⟨32, _⟩ => ⟨S60x60, .bf16⟩
  | .hbm, ⟨33, _⟩ => ⟨S60x60, .bf16⟩
  | .hbm, ⟨34, _⟩ => ⟨S60x60, .bf16⟩
  | .hbm, ⟨35, _⟩ => ⟨S60x60, .bf16⟩
  | .hbm, ⟨36, _⟩ => ⟨S1x1015808, .f32⟩
  | .hbm, ⟨37, _⟩ => ⟨S1x1000000, .f32⟩
  | .hbm, ⟨38, _⟩ => ⟨S1000000x1, .f32⟩
  | .local _ .vmem, ⟨0, _⟩ => ⟨S1x16384, .f32⟩
  | .local _ .vmem, ⟨1, _⟩ => ⟨S1x16384, .f32⟩
  | .local _ .vmem, ⟨2, _⟩ => ⟨S1x16384, .f32⟩
  | .local _ .vmem, ⟨3, _⟩ => ⟨S1x16384, .f32⟩
  | .local _ .vmem, ⟨4, _⟩ => ⟨S60x2, .f32⟩
  | .local _ .vmem, ⟨5, _⟩ => ⟨S60x1, .f32⟩
  | .local _ .vmem, ⟨6, _⟩ => ⟨S60x60, .bf16⟩
  | .local _ .vmem, ⟨7, _⟩ => ⟨S60x1, .f32⟩
  | .local _ .vmem, ⟨8, _⟩ => ⟨S60x60, .bf16⟩
  | .local _ .vmem, ⟨9, _⟩ => ⟨S60x1, .f32⟩
  | .local _ .vmem, ⟨10, _⟩ => ⟨S60x60, .bf16⟩
  | .local _ .vmem, ⟨11, _⟩ => ⟨S60x1, .f32⟩
  | .local _ .vmem, ⟨12, _⟩ => ⟨S60x60, .bf16⟩
  | .local _ .vmem, ⟨13, _⟩ => ⟨S60x1, .f32⟩
  | .local _ .vmem, ⟨14, _⟩ => ⟨S60x60, .bf16⟩
  | .local _ .vmem, ⟨15, _⟩ => ⟨S60x1, .f32⟩
  | .local _ .vmem, ⟨16, _⟩ => ⟨S1x60, .f32⟩
  | .local _ .vmem, ⟨17, _⟩ => ⟨S1x1, .f32⟩
  | .local _ .vmem, ⟨18, _⟩ => ⟨S1x16384, .f32⟩
  | .local _ .vmem, ⟨19, _⟩ => ⟨S1x16384, .f32⟩
  | _, _ => ⟨S1000000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_c : Ref sig .tc := ⟨.hbm, 17, rfl⟩
abbrev main_call0_v0 : Ref sig .tc := ⟨.hbm, 18, rfl⟩
abbrev main_v1 : Ref sig .tc := ⟨.hbm, 19, rfl⟩
abbrev main_v2 : Ref sig .tc := ⟨.hbm, 20, rfl⟩
abbrev main_c_0 : Ref sig .tc := ⟨.hbm, 21, rfl⟩
abbrev main_call1_v0 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg16_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem16_1 : DmaSem sig := 19

abbrev nD : Nat := 1
abbrev τ : Topo := Topo.v7x

variable {F : FTy → Type} [FloatOps F]

abbrev grid0 : Pipeline.Grid := ⟨1, ![62], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S60x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S60x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S60x60 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S60x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S60x60 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S60x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S60x60 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S60x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S60x60 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S60x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S60x60 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S60x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x60 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S1x16384 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  shapeCasts_S1000000x1_S1x1000000 : S1000000x1.ShapeCasts S1x1000000
  pads_S1x1000000_S1x1015808_000_0158080 : S1x1000000.Pads (![0, 0] : Fin 2 → Nat) ![0, 15808] ![0, 0] S1x1015808
  h_S_ : 0 < S_.numel
  shapeCasts_S60_S60x1 : S60.ShapeCasts S60x1
  shapeCasts_S1_S1x1 : S1.ShapeCasts S1x1
  bitsLt_bf16_f32 : FTy.bits .bf16 < FTy.bits .f32
  inb_S1x16384_S1x16384_0_0 : ∀ a, (![0, 0] : Fin 2 → Nat) a + S1x16384.size a ≤ S1x16384.size a
  h_S1x16384 : 0 < S1x16384.numel
  shapeCasts_S1x16384_S1x16384 : S1x16384.ShapeCasts S1x16384
  concatenates_S1x16384_S1x16384_S2x16384_d0 : Shape.Concatenates [S1x16384, S1x16384] S2x16384 0
  inb_S60x2_S60x2_0_0 : ∀ a, (![0, 0] : Fin 2 → Nat) a + S60x2.size a ≤ S60x2.size a
  h_S60x2 : 0 < S60x2.numel
  inb_S60x1_S60x1_0_0 : ∀ a, (![0, 0] : Fin 2 → Nat) a + S60x1.size a ≤ S60x1.size a
  h_S60x1 : 0 < S60x1.numel
  shapeCasts_S60x1_S60x1 : S60x1.ShapeCasts S60x1
  broadcasts_S60x1_S60x16384 : S60x1.Broadcasts S60x16384
  inb_S60x60_S60x60_0_0 : ∀ a, (![0, 0] : Fin 2 → Nat) a + S60x60.size a ≤ S60x60.size a
  h_S60x60 : 0 < S60x60.numel
  shapeCasts_S60x60_S60x60 : S60x60.ShapeCasts S60x60
  inb_S1x60_S1x60_0_0 : ∀ a, (![0, 0] : Fin 2 → Nat) a + S1x60.size a ≤ S1x60.size a
  h_S1x60 : 0 < S1x60.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x16384 : S1x1.Broadcasts S1x16384
  slices_S1x1015808_S1x1000000_0_0 : S1x1015808.Slices ![0, 0] S1x1000000
  shapeCasts_S1x1000000_S1000000x1 : S1x1000000.ShapeCasts S1000000x1
  dot_S60x2_S2x16384_S60x16384_1_0_0_1_n_n_wf : DotDims.WF S60x2 S2x16384 S60x16384 [1] [0] [0] [1] [] []
  dot_S60x60_S60x16384_S60x16384_1_0_0_1_n_n_wf : DotDims.WF S60x60 S60x16384 S60x16384 [1] [0] [0] [1] [] []
  dot_S1x60_S60x16384_S1x16384_1_0_0_1_n_n_wf : DotDims.WF S1x60 S60x16384 S1x16384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16384.size a ≤ S1x1015808.size a
  hwx0_0 : ∀ i : grid0.Coords, EltTy.bits .f32 = 32 ∨ (Rect.block (s := S1x1015808) S1x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16384.size a ≤ S1x1015808.size a
  hwx0_1 : ∀ i : grid0.Coords, EltTy.bits .f32 = 32 ∨ (Rect.block (s := S1x1015808) S1x16384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S60x2.size a ≤ S60x2.size a
  hwx0_2 : ∀ i : grid0.Coords, EltTy.bits .f32 = 32 ∨ (Rect.block (s := S60x2) S60x2.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S60x1.size a ≤ S60x1.size a
  hwx0_3 : ∀ i : grid0.Coords, EltTy.bits .f32 = 32 ∨ (Rect.block (s := S60x1) S60x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S60x60.size a ≤ S60x60.size a
  hwx0_4 : ∀ i : grid0.Coords, EltTy.bits .bf16 = 32 ∨ (Rect.block (s := S60x60) S60x60.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S60x1.size a ≤ S60x1.size a
  hwx0_5 : ∀ i : grid0.Coords, EltTy.bits .f32 = 32 ∨ (Rect.block (s := S60x1) S60x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S60x60.size a ≤ S60x60.size a
  hwx0_6 : ∀ i : grid0.Coords, EltTy.bits .bf16 = 32 ∨ (Rect.block (s := S60x60) S60x60.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S60x1.size a ≤ S60x1.size a
  hwx0_7 : ∀ i : grid0.Coords, EltTy.bits .f32 = 32 ∨ (Rect.block (s := S60x1) S60x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S60x60.size a ≤ S60x60.size a
  hwx0_8 : ∀ i : grid0.Coords, EltTy.bits .bf16 = 32 ∨ (Rect.block (s := S60x60) S60x60.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S60x1.size a ≤ S60x1.size a
  hwx0_9 : ∀ i : grid0.Coords, EltTy.bits .f32 = 32 ∨ (Rect.block (s := S60x1) S60x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S60x60.size a ≤ S60x60.size a
  hwx0_10 : ∀ i : grid0.Coords, EltTy.bits .bf16 = 32 ∨ (Rect.block (s := S60x60) S60x60.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S60x1.size a ≤ S60x1.size a
  hwx0_11 : ∀ i : grid0.Coords, EltTy.bits .f32 = 32 ∨ (Rect.block (s := S60x1) S60x1.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S60x60.size a ≤ S60x60.size a
  hwx0_12 : ∀ i : grid0.Coords, EltTy.bits .bf16 = 32 ∨ (Rect.block (s := S60x60) S60x60.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S60x1.size a ≤ S60x1.size a
  hwx0_13 : ∀ i : grid0.Coords, EltTy.bits .f32 = 32 ∨ (Rect.block (s := S60x1) S60x1.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x60.size a ≤ S1x60.size a
  hwx0_14 : ∀ i : grid0.Coords, EltTy.bits .f32 = 32 ∨ (Rect.block (s := S1x60) S1x60.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x1.size a ≤ S1x1.size a
  hwx0_15 : ∀ i : grid0.Coords, EltTy.bits .f32 = 32 ∨ (Rect.block (s := S1x1) S1x1.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S1x16384.size a ≤ S1x1015808.size a
  hwx0_16 : ∀ i : grid0.Coords, EltTy.bits .f32 = 32 ∨ (Rect.block (s := S1x1015808) S1x16384.size (cc0_transform_16 i) (hinb0_16 i)).WholeWords (EltTy.packing .f32)

variable [Facts₀]

def dot_S60x2_S2x16384_S60x16384_1_0_0_1_n_n : DotDims S60x2 S2x16384 S60x16384 where
  lhsContracting := [1]
  rhsContracting := [0]
  lhsNonContracting := [0]
  rhsNonContracting := [1]
  lhsBatch := []
  rhsBatch := []
  wf := dot_S60x2_S2x16384_S60x16384_1_0_0_1_n_n_wf
def dot_S60x60_S60x16384_S60x16384_1_0_0_1_n_n : DotDims S60x60 S60x16384 S60x16384 where
  lhsContracting := [1]
  rhsContracting := [0]
  lhsNonContracting := [0]
  rhsNonContracting := [1]
  lhsBatch := []
  rhsBatch := []
  wf := dot_S60x60_S60x16384_S60x16384_1_0_0_1_n_n_wf
def dot_S1x60_S60x16384_S1x16384_1_0_0_1_n_n : DotDims S1x60 S60x16384 S1x16384 where
  lhsContracting := [1]
  rhsContracting := [0]
  lhsNonContracting := [0]
  rhsNonContracting := [1]
  lhsBatch := []
  rhsBatch := []
  wf := dot_S1x60_S60x16384_S1x16384_1_0_0_1_n_n_wf

abbrev win0_0 : Pipeline.Window sig grid0 :=
  Pipeline.Window.ofSpec (Memref.whole main_v1) S1x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S60x2.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S60x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S60x60.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S60x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S60x60.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S60x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v13) S60x60.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v7) S60x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v14) S60x60.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v8) S60x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v15) S60x60.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v9) S60x1.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S1x60.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v10) S1x1.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v16) S1x16384.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S1000000x1 : Shape := ⟨2, ![1000000, 1]⟩
abbrev S60x2 : Shape := ⟨2, ![60, 2]⟩
abbrev S60 : Shape := ⟨1, ![60]⟩
abbrev S60x60 : Shape := ⟨2, ![60, 60]⟩
abbrev S1x60 : Shape := ⟨2, ![1, 60]⟩
abbrev S1 : Shape := ⟨1, ![1]⟩
abbrev S1000000x2 : Shape := ⟨2, ![1000000, 2]⟩
abbrev S2x60 : Shape := ⟨2, ![2, 60]⟩
abbrev S1000000x60 : Shape := ⟨2, ![1000000, 60]⟩
abbrev S_ : Shape := ⟨0, ![]⟩
abbrev S60x1 : Shape := ⟨2, ![60, 1]⟩
abbrev S1x1 : Shape := ⟨2, ![1, 1]⟩

abbrev nBuf : Space → Nat
  | .hbm => 106
  | .vmem => 0
  | .smem => 0
  | _ => 0

abbrev bufTy : (tb : Table) → Fin (tcTables nBuf tb) → BufTy
  | .hbm, ⟨0, _⟩ => ⟨S1000000x1, .f32⟩
  | .hbm, ⟨1, _⟩ => ⟨S1000000x1, .f32⟩
  | .hbm, ⟨2, _⟩ => ⟨S60x2, .f32⟩
  | .hbm, ⟨3, _⟩ => ⟨S60, .f32⟩
  | .hbm, ⟨4, _⟩ => ⟨S60x60, .f32⟩
  | .hbm, ⟨5, _⟩ => ⟨S60, .f32⟩
  | .hbm, ⟨6, _⟩ => ⟨S60x60, .f32⟩
  | .hbm, ⟨7, _⟩ => ⟨S60, .f32⟩
  | .hbm, ⟨8, _⟩ => ⟨S60x60, .f32⟩
  | .hbm, ⟨9, _⟩ => ⟨S60, .f32⟩
  | .hbm, ⟨10, _⟩ => ⟨S60x60, .f32⟩
  | .hbm, ⟨11, _⟩ => ⟨S60, .f32⟩
  | .hbm, ⟨12, _⟩ => ⟨S60x60, .f32⟩
  | .hbm, ⟨13, _⟩ => ⟨S60, .f32⟩
  | .hbm, ⟨14, _⟩ => ⟨S1x60, .f32⟩
  | .hbm, ⟨15, _⟩ => ⟨S1, .f32⟩
  | .hbm, ⟨16, _⟩ => ⟨S1000000x2, .f32⟩
  | .hbm, ⟨17, _⟩ => ⟨S2x60, .f32⟩
  | .hbm, ⟨18, _⟩ => ⟨S1000000x60, .f32⟩
  | .hbm, ⟨19, _⟩ => ⟨S1x60, .f32⟩
  | .hbm, ⟨20, _⟩ => ⟨S1000000x60, .f32⟩
  | .hbm, ⟨21, _⟩ => ⟨S1000000x60, .f32⟩
  | .hbm, ⟨22, _⟩ => ⟨S1000000x60, .f32⟩
  | .hbm, ⟨23, _⟩ => ⟨S1000000x60, .f32⟩
  | .hbm, ⟨24, _⟩ => ⟨S_, .f32⟩
  | .hbm, ⟨25, _⟩ => ⟨S1000000x60, .f32⟩
  | .hbm, ⟨26, _⟩ => ⟨S1000000x60, .f32⟩
  | .hbm, ⟨27, _⟩ => ⟨S_, .f32⟩
  | .hbm, ⟨28, _⟩ => ⟨S1000000x60, .f32⟩
  | .hbm, ⟨29, _⟩ => ⟨S1000000x60, .f32⟩
  | .hbm, ⟨30, _⟩ => ⟨S1000000x60, .f32⟩
  | .hbm, ⟨31, _⟩ => ⟨S60x60, .f32⟩
  | .hbm, ⟨32, _⟩ => ⟨S1000000x60, .f32⟩
  | .hbm, ⟨33, _⟩ => ⟨S1x60, .f32⟩
  | .hbm, ⟨34, _⟩ => ⟨S1000000x60, .f32⟩
  | .hbm, ⟨35, _⟩ => ⟨S1000000x60, .f32⟩
  | .hbm, ⟨36, _⟩ => ⟨S1000000x60, .f32⟩
  | .hbm, ⟨37, _⟩ => ⟨S1000000x60, .f32⟩
  | .hbm, ⟨38, _⟩ => ⟨S_, .f32⟩
  | .hbm, ⟨39, _⟩ => ⟨S1000000x60, .f32⟩
  | .hbm, ⟨40, _⟩ => ⟨S1000000x60, .f32⟩
  | .hbm, ⟨41, _⟩ => ⟨S_, .f32⟩
  | .hbm, ⟨42, _⟩ => ⟨S1000000x60, .f32⟩
  | .hbm, ⟨43, _⟩ => ⟨S1000000x60, .f32⟩
  | .hbm, ⟨44, _⟩ => ⟨S1000000x60, .f32⟩
  | .hbm, ⟨45, _⟩ => ⟨S60x60, .f32⟩
  | .hbm, ⟨46, _⟩ => ⟨S1000000x60, .f32⟩
  | .hbm, ⟨47, _⟩ => ⟨S1x60, .f32⟩
  | .hbm, ⟨48, _⟩ => ⟨S1000000x60, .f32⟩
  | .hbm, ⟨49, _⟩ => ⟨S1000000x60, .f32⟩
  | .hbm, ⟨50, _⟩ => ⟨S1000000x60, .f32⟩
  | .hbm, ⟨51, _⟩ => ⟨S1000000x60, .f32⟩
  | .hbm, ⟨52, _⟩ => ⟨S_, .f32⟩
  | .hbm, ⟨53, _⟩ => ⟨S1000000x60, .f32⟩
  | .hbm, ⟨54, _⟩ => ⟨S1000000x60, .f32⟩
  | .hbm, ⟨55, _⟩ => ⟨S_, .f32⟩
  | .hbm, ⟨56, _⟩ => ⟨S1000000x60, .f32⟩
  | .hbm, ⟨57, _⟩ => ⟨S1000000x60, .f32⟩
  | .hbm, ⟨58, _⟩ => ⟨S1000000x60, .f32⟩
  | .hbm, ⟨59, _⟩ => ⟨S60x60, .f32⟩
  | .hbm, ⟨60, _⟩ => ⟨S1000000x60, .f32⟩
  | .hbm, ⟨61, _⟩ => ⟨S1x60, .f32⟩
  | .hbm, ⟨62, _⟩ => ⟨S1000000x60, .f32⟩
  | .hbm, ⟨63, _⟩ => ⟨S1000000x60, .f32⟩
  | .hbm, ⟨64, _⟩ => ⟨S1000000x60, .f32⟩
  | .hbm, ⟨65, _⟩ => ⟨S1000000x60, .f32⟩
  | .hbm, ⟨66, _⟩ => ⟨S_, .f32⟩
  | .hbm, ⟨67, _⟩ => ⟨S1000000x60, .f32⟩
  | .hbm, ⟨68, _⟩ => ⟨S1000000x60, .f32⟩
  | .hbm, ⟨69, _⟩ => ⟨S_, .f32⟩
  | .hbm, ⟨70, _⟩ => ⟨S1000000x60, .f32⟩
  | .hbm, ⟨71, _⟩ => ⟨S1000000x60, .f32⟩
  | .hbm, ⟨72, _⟩ => ⟨S1000000x60, .f32⟩
  | .hbm, ⟨73, _⟩ => ⟨S60x60, .f32⟩
  | .hbm, ⟨74, _⟩ => ⟨S1000000x60, .f32⟩
  | .hbm, ⟨75, _⟩ => ⟨S1x60, .f32⟩
  | .hbm, ⟨76, _⟩ => ⟨S1000000x60, .f32⟩
  | .hbm, ⟨77, _⟩ => ⟨S1000000x60, .f32⟩
  | .hbm, ⟨78, _⟩ => ⟨S1000000x60, .f32⟩
  | .hbm, ⟨79, _⟩ => ⟨S1000000x60, .f32⟩
  | .hbm, ⟨80, _⟩ => ⟨S_, .f32⟩
  | .hbm, ⟨81, _⟩ => ⟨S1000000x60, .f32⟩
  | .hbm, ⟨82, _⟩ => ⟨S1000000x60, .f32⟩
  | .hbm, ⟨83, _⟩ => ⟨S_, .f32⟩
  | .hbm, ⟨84, _⟩ => ⟨S1000000x60, .f32⟩
  | .hbm, ⟨85, _⟩ => ⟨S1000000x60, .f32⟩
  | .hbm, ⟨86, _⟩ => ⟨S1000000x60, .f32⟩
  | .hbm, ⟨87, _⟩ => ⟨S60x60, .f32⟩
  | .hbm, ⟨88, _⟩ => ⟨S1000000x60, .f32⟩
  | .hbm, ⟨89, _⟩ => ⟨S1x60, .f32⟩
  | .hbm, ⟨90, _⟩ => ⟨S1000000x60, .f32⟩
  | .hbm, ⟨91, _⟩ => ⟨S1000000x60, .f32⟩
  | .hbm, ⟨92, _⟩ => ⟨S1000000x60, .f32⟩
  | .hbm, ⟨93, _⟩ => ⟨S1000000x60, .f32⟩
  | .hbm, ⟨94, _⟩ => ⟨S_, .f32⟩
  | .hbm, ⟨95, _⟩ => ⟨S1000000x60, .f32⟩
  | .hbm, ⟨96, _⟩ => ⟨S1000000x60, .f32⟩
  | .hbm, ⟨97, _⟩ => ⟨S_, .f32⟩
  | .hbm, ⟨98, _⟩ => ⟨S1000000x60, .f32⟩
  | .hbm, ⟨99, _⟩ => ⟨S1000000x60, .f32⟩
  | .hbm, ⟨100, _⟩ => ⟨S1000000x60, .f32⟩
  | .hbm, ⟨101, _⟩ => ⟨S60x1, .f32⟩
  | .hbm, ⟨102, _⟩ => ⟨S1000000x1, .f32⟩
  | .hbm, ⟨103, _⟩ => ⟨S1x1, .f32⟩
  | .hbm, ⟨104, _⟩ => ⟨S1000000x1, .f32⟩
  | .hbm, ⟨105, _⟩ => ⟨S1000000x1, .f32⟩
  | _, _ => ⟨S1000000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_call1_v0 : Ref sig .tc := ⟨.hbm, 36, rfl⟩
abbrev main_call1_v1 : Ref sig .tc := ⟨.hbm, 37, rfl⟩
abbrev main_call1_cst : Ref sig .tc := ⟨.hbm, 38, rfl⟩
abbrev main_call1_v2 : Ref sig .tc := ⟨.hbm, 39, rfl⟩
abbrev main_call1_v3 : Ref sig .tc := ⟨.hbm, 40, rfl⟩
abbrev main_call1_cst_0 : Ref sig .tc := ⟨.hbm, 41, rfl⟩
abbrev main_call1_v4 : Ref sig .tc := ⟨.hbm, 42, rfl⟩
abbrev main_call1_v5 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_call2_v0 : Ref sig .tc := ⟨.hbm, 50, rfl⟩
abbrev main_call2_v1 : Ref sig .tc := ⟨.hbm, 51, rfl⟩
abbrev main_call2_cst : Ref sig .tc := ⟨.hbm, 52, rfl⟩
abbrev main_call2_v2 : Ref sig .tc := ⟨.hbm, 53, rfl⟩
abbrev main_call2_v3 : Ref sig .tc := ⟨.hbm, 54, rfl⟩
abbrev main_call2_cst_0 : Ref sig .tc := ⟨.hbm, 55, rfl⟩
abbrev main_call2_v4 : Ref sig .tc := ⟨.hbm, 56, rfl⟩
abbrev main_call2_v5 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_call3_v0 : Ref sig .tc := ⟨.hbm, 64, rfl⟩
abbrev main_call3_v1 : Ref sig .tc := ⟨.hbm, 65, rfl⟩
abbrev main_call3_cst : Ref sig .tc := ⟨.hbm, 66, rfl⟩
abbrev main_call3_v2 : Ref sig .tc := ⟨.hbm, 67, rfl⟩
abbrev main_call3_v3 : Ref sig .tc := ⟨.hbm, 68, rfl⟩
abbrev main_call3_cst_0 : Ref sig .tc := ⟨.hbm, 69, rfl⟩
abbrev main_call3_v4 : Ref sig .tc := ⟨.hbm, 70, rfl⟩
abbrev main_call3_v5 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_call4_v0 : Ref sig .tc := ⟨.hbm, 78, rfl⟩
abbrev main_call4_v1 : Ref sig .tc := ⟨.hbm, 79, rfl⟩
abbrev main_call4_cst : Ref sig .tc := ⟨.hbm, 80, rfl⟩
abbrev main_call4_v2 : Ref sig .tc := ⟨.hbm, 81, rfl⟩
abbrev main_call4_v3 : Ref sig .tc := ⟨.hbm, 82, rfl⟩
abbrev main_call4_cst_0 : Ref sig .tc := ⟨.hbm, 83, rfl⟩
abbrev main_call4_v4 : Ref sig .tc := ⟨.hbm, 84, rfl⟩
abbrev main_call4_v5 : Ref sig .tc := ⟨.hbm, 85, rfl⟩
abbrev main_v30 : Ref sig .tc := ⟨.hbm, 86, rfl⟩
abbrev main_v31 : Ref sig .tc := ⟨.hbm, 87, rfl⟩
abbrev main_v32 : Ref sig .tc := ⟨.hbm, 88, rfl⟩
abbrev main_v33 : Ref sig .tc := ⟨.hbm, 89, rfl⟩
abbrev main_v34 : Ref sig .tc := ⟨.hbm, 90, rfl⟩
abbrev main_v35 : Ref sig .tc := ⟨.hbm, 91, rfl⟩
abbrev main_call5_v0 : Ref sig .tc := ⟨.hbm, 92, rfl⟩
abbrev main_call5_v1 : Ref sig .tc := ⟨.hbm, 93, rfl⟩
abbrev main_call5_cst : Ref sig .tc := ⟨.hbm, 94, rfl⟩
abbrev main_call5_v2 : Ref sig .tc := ⟨.hbm, 95, rfl⟩
abbrev main_call5_v3 : Ref sig .tc := ⟨.hbm, 96, rfl⟩
abbrev main_call5_cst_0 : Ref sig .tc := ⟨.hbm, 97, rfl⟩
abbrev main_call5_v4 : Ref sig .tc := ⟨.hbm, 98, rfl⟩
abbrev main_call5_v5 : Ref sig .tc := ⟨.hbm, 99, rfl⟩
abbrev main_v36 : Ref sig .tc := ⟨.hbm, 100, rfl⟩
abbrev main_v37 : Ref sig .tc := ⟨.hbm, 101, rfl⟩
abbrev main_v38 : Ref sig .tc := ⟨.hbm, 102, rfl⟩
abbrev main_v39 : Ref sig .tc := ⟨.hbm, 103, rfl⟩
abbrev main_v40 : Ref sig .tc := ⟨.hbm, 104, rfl⟩
abbrev main_v41 : Ref sig .tc := ⟨.hbm, 105, rfl⟩

abbrev nD : Nat := 1
abbrev τ : Topo := Topo.v7x

variable {F : FTy → Type} [FloatOps F]

class Facts₀ : Prop where
  concatenates_S1000000x1_S1000000x1_S1000000x2_d1 : Shape.Concatenates [S1000000x1, S1000000x1] S1000000x2 1
  transposes_S60x2_S2x60_1_0 : S60x2.Transposes [1, 0] S2x60
  bcast_S60_S1x60_1 : S60.BroadcastsInDim S1x60 (![1] : Fin 1 → Fin S1x60.rank)
  bcast_S1x60_S1000000x60_0_1 : S1x60.BroadcastsInDim S1000000x60 (![0, 1] : Fin 2 → Fin S1000000x60.rank)
  bcast_S_S1000000x60 : S_.BroadcastsInDim S1000000x60 (![] : Fin 0 → Fin S1000000x60.rank)
  transposes_S60x60_S60x60_1_0 : S60x60.Transposes [1, 0] S60x60
  transposes_S1x60_S60x1_1_0 : S1x60.Transposes [1, 0] S60x1
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  dot_S1000000x2_S2x60_S1000000x60_1_0_0_1_n_n_wf : DotDims.WF S1000000x2 S2x60 S1000000x60 [1] [0] [0] [1] [] []
  dot_S1000000x60_S60x60_S1000000x60_1_0_0_1_n_n_wf : DotDims.WF S1000000x60 S60x60 S1000000x60 [1] [0] [0] [1] [] []
  dot_S1000000x60_S60x1_S1000000x1_1_0_0_1_n_n_wf : DotDims.WF S1000000x60 S60x1 S1000000x1 [1] [0] [0] [1] [] []

variable [Facts₀]

def dot_S1000000x2_S2x60_S1000000x60_1_0_0_1_n_n : DotDims S1000000x2 S2x60 S1000000x60 where
  lhsContracting := [1]
  rhsContracting := [0]
  lhsNonContracting := [0]
  rhsNonContracting := [1]
  lhsBatch := []
  rhsBatch := []
  wf := dot_S1000000x2_S2x60_S1000000x60_1_0_0_1_n_n_wf
def dot_S1000000x60_S60x60_S1000000x60_1_0_0_1_n_n : DotDims S1000000x60 S60x60 S1000000x60 where
  lhsContracting := [1]
  rhsContracting := [0]
  lhsNonContracting := [0]
  rhsNonContracting := [1]
  lhsBatch := []
  rhsBatch := []
  wf := dot_S1000000x60_S60x60_S1000000x60_1_0_0_1_n_n_wf
def dot_S1000000x60_S60x1_S1000000x1_1_0_0_1_n_n : DotDims S1000000x60 S60x1 S1000000x1 where
  lhsContracting := [1]
  rhsContracting := [0]
  lhsNonContracting := [0]
  rhsNonContracting := [1]
  lhsBatch := []
  rhsBatch := []
  wf := dot_S1000000x60_S60x1_S1000000x1_1_0_0_1_n_n_wf

class Facts : Prop extends Facts₀ where

variable [Facts]
-- ==== Proof.Mlp.lean ====
/-
  The network both programs compute, one data row at a time.

  A row of the data is a pair (x, y) of extended reals. A dense layer with weights W (one row of W per output
  feature) and bias b sends a feature vector h to z = W h + b, entry by entry z o = (∑ k, W o k * h k) + b o, and
  then applies SiLU, z * logistic z, where logistic z = 1 / (1 + exp (-z)). Six such layers — the first from the two
  input features to sixty, the next five from sixty to sixty — are followed by one affine map from sixty features
  to a single number, with no activation. The result depends on the row's own pair (x, y) and on the weights only:
  rows do not interact.

  The result array G has one entry per data row: entry (n, 0) is the network at (x n, y n).
-/
import Idealize.ShloMosaic.PureOps.Ideal
import Idealize.ShloMosaic.Lib.ValueIdx

noncomputable section

namespace Cert.Mlp

open Idealize.ShloMosaic Idealize.ShloMosaic.ValueIdx

/-- SiLU: `z * logistic z`. -/
def silu (z : EReal) : EReal := z * Ideal.logistic z

/-- A dense layer followed by SiLU, from `K` features to sixty: output feature `o` is
    `silu ((∑ k, W o k * h k) + b o)`. -/
def dense {K : ℕ} (W : Fin 60 → Fin K → EReal) (b : Fin 60 → EReal) (h : Fin K → EReal) (o : Fin 60) : EReal :=
  silu ((∑ k : Fin K, W o k * h k) + b o)

/-- The last layer: an affine map from sixty features to one number, `(∑ k, w k * h k) + b`. -/
def affine (w : Fin 60 → EReal) (b : EReal) (h : Fin 60 → EReal) : EReal :=
  (∑ k : Fin 60, w k * h k) + b

/-- The two input features of a row as a feature vector. -/
def pair (x y : EReal) : Fin 2 → EReal := ![x, y]

@[simp] theorem pair_zero (x y : EReal) : pair x y 0 = x := rfl
@[simp] theorem pair_one (x y : EReal) : pair x y 1 = y := rfl

/-- The whole network at one row `(x, y)`. -/
def net (W1 : Fin 60 → Fin 2 → EReal) (b1 : Fin 60 → EReal)
    (W2 : Fin 60 → Fin 60 → EReal) (b2 : Fin 60 → EReal)
    (W3 : Fin 60 → Fin 60 → EReal) (b3 : Fin 60 → EReal)
    (W4 : Fin 60 → Fin 60 → EReal) (b4 : Fin 60 → EReal)
    (W5 : Fin 60 → Fin 60 → EReal) (b5 : Fin 60 → EReal)
    (W6 : Fin 60 → Fin 60 → EReal) (b6 : Fin 60 → EReal)
    (w7 : Fin 60 → EReal) (b7 : EReal) (x y : EReal) : EReal :=
  affine w7 b7 (dense W6 b6 (dense W5 b5 (dense W4 b4 (dense W3 b3 (dense W2 b2 (dense W1 b1 (pair x y)))))))

/-- The result array as a function of the sixteen argument arrays: entry `(n, 0)` is the network at row `n`'s pair,
    with the weight matrices read row by row and the biases entry by entry. -/
def G (x y : (⟨2, ![1000000, 1]⟩ : Shape).Idx → EReal)
    (W1 : (⟨2, ![60, 2]⟩ : Shape).Idx → EReal) (b1 : (⟨1, ![60]⟩ : Shape).Idx → EReal)
    (W2 : (⟨2, ![60, 60]⟩ : Shape).Idx → EReal) (b2 : (⟨1, ![60]⟩ : Shape).Idx → EReal)
    (W3 : (⟨2, ![60, 60]⟩ : Shape).Idx → EReal) (b3 : (⟨1, ![60]⟩ : Shape).Idx → EReal)
    (W4 : (⟨2, ![60, 60]⟩ : Shape).Idx → EReal) (b4 : (⟨1, ![60]⟩ : Shape).Idx → EReal)
    (W5 : (⟨2, ![60, 60]⟩ : Shape).Idx → EReal) (b5 : (⟨1, ![60]⟩ : Shape).Idx → EReal)
    (W6 : (⟨2, ![60, 60]⟩ : Shape).Idx → EReal) (b6 : (⟨1, ![60]⟩ : Shape).Idx → EReal)
    (W7 : (⟨2, ![1, 60]⟩ : Shape).Idx → EReal) (b7 : (⟨1, ![1]⟩ : Shape).Idx → EReal) :
    (⟨2, ![1000000, 1]⟩ : Shape).Idx → EReal := fun i =>
  net (fun o k => W1 (ix2 o k)) (fun o => b1 (ix1 o))
    (fun o k => W2 (ix2 o k)) (fun o => b2 (ix1 o))
    (fun o k => W3 (ix2 o k)) (fun o => b3 (ix1 o))
    (fun o k => W4 (ix2 o k)) (fun o => b4 (ix1 o))
    (fun o k => W5 (ix2 o k)) (fun o => b5 (ix1 o))
    (fun o k => W6 (ix2 o k)) (fun o => b6 (ix1 o))
    (fun k => W7 (ix2 (0 : Fin 1) k)) (b7 (ix1 (0 : Fin 1)))
    (x (ix2 (i 0) (0 : Fin 1))) (y (ix2 (i 0) (0 : Fin 1)))

end Cert.Mlp

end
-- ==== Proof.LibPlainDot.lean ====
/-
  A plain matrix product read at coordinates.

  For the dimension numbers of an `M×K` by `K×N` product (contract the left operand's second axis with the right
  operand's first, no batch axes), the contraction's sum at the output entry `(r, c)` is the textbook
  `∑ k, lhs (r, k) * rhs (k, c)`: the one-axis contraction index is re-indexed by its coordinate.
-/
import Idealize.ShloMosaic.PureOps.Ideal
import Idealize.ShloMosaic.PureOps.Ideal.Laws
import Idealize.ShloMosaic.Lib.ValueIdx

noncomputable section

namespace Idealize.ShloMosaic.PlainDot

open Idealize.ShloMosaic Idealize.ShloMosaic.ValueIdx

/-- The dimension numbers `<[1], [0], [0], [1]>` of an `M×K` by `K×N` product, at any witness of their conditions. -/
abbrev dims (M K N : Nat) (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

/-- The left operand's index at output `(r, c)` and contraction index `q` is `(r, q)`. -/
theorem lhsIdx_eq (r : Fin M) (c : Fin N) (k : Fin K) :
    (dims M K N wf).lhsIdx (ix2 r c) ((contrEquiv1 (dims M K N wf) K rfl rfl).symm k) = ix2 r k := by
  have hk := contrEquiv1_symm_val (dims M K N wf) K rfl rfl k
  funext a
  refine Fin.ext ?_
  match a with
  | ⟨0, _⟩ =>
    show ((dims M K N wf).lhsIdx (ix2 r c) _ 0).val = r.val
    unfold DotDims.lhsIdx
    rw [dif_neg (show ¬(0 : Fin 2) ∈ (dims M K N wf).lhsBatch from List.not_mem_nil),
      dif_pos (show (0 : Fin 2) ∈ (dims M K N wf).lhsNonContracting from List.mem_singleton.mpr rfl)]
    rfl
  | ⟨1, _⟩ =>
    exact ((dims M K N wf).lhsIdx_val_of_single rfl (ix2 r c) _).trans hk

/-- The right operand's index at output `(r, c)` and contraction index `q` is `(q, c)`. -/
theorem rhsIdx_eq (r : Fin M) (c : Fin N) (k : Fin K) :
    (dims M K N wf).rhsIdx (ix2 r c) ((contrEquiv1 (dims M K N wf) K rfl rfl).symm k) = ix2 k c := by
  have hk := contrEquiv1_symm_val (dims M K N wf) K rfl rfl k
  funext a
  refine Fin.ext ?_
  match a with
  | ⟨0, _⟩ =>
    exact ((dims M K N wf).rhsIdx_val_of_single rfl (ix2 r c) _).trans hk
  | ⟨1, _⟩ =>
    show ((dims M K N wf).rhsIdx (ix2 r c) _ 1).val = c.val
    unfold DotDims.rhsIdx
    rw [dif_neg (show ¬(1 : Fin 2) ∈ (dims M K N wf).rhsBatch from List.not_mem_nil),
      dif_pos (show (1 : Fin 2) ∈ (dims M K N wf).rhsNonContracting from List.mem_singleton.mpr rfl)]
    rfl

/-- THE CONTRACTION at `(r, c)`: the sum over `k` of `lhs (r, k) * rhs (k, c)`. -/
theorem contraction_apply (lhs : (⟨2, ![M, K]⟩ : Shape).Idx → EReal) (rhs : (⟨2, ![K, N]⟩ : Shape).Idx → EReal)
    (r : Fin M) (c : Fin N) :
    (∑ q : (dims M K N wf).contr.Idx,
        lhs ((dims M K N wf).lhsIdx (ix2 r c) q) * rhs ((dims M K N wf).rhsIdx (ix2 r c) q))
      = ∑ k : Fin K, lhs (ix2 r k) * rhs (ix2 k c) := by
  rw [← Equiv.sum_comp (contrEquiv1 (dims M K N wf) K rfl rfl).symm]
  refine Finset.sum_congr rfl fun k _ => ?_
  rw [lhsIdx_eq wf r c k, rhsIdx_eq wf r c k]

/-- A matrix-unit product into a zero accumulator, at the exact-real instance, read at `(r, c)`. -/
theorem matmul_zero_apply {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (dims M K N wf) prec lhs rhs (constant ⟨2, ![M, N]⟩ .f32 0x00000000#32) (ix2 r c)
      = ∑ k : Fin K, lhs (ix2 r k) * rhs (ix2 k c) := by
  rw [Ideal.matmul_constant_zero_apply]
  exact contraction_apply wf lhs rhs r c

/-- The host's product, at the exact-real instance, read at `(r, c)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (dims M K N wf) prec sched lhs rhs (ix2 r c)
      = ∑ k : Fin K, lhs (ix2 r k) * rhs (ix2 k c) := by
  rw [Ideal.dotGeneral_apply]
  exact contraction_apply wf lhs rhs r c

end Idealize.ShloMosaic.PlainDot

end
-- ==== Proof.LibColumn.lean ====
/-
  A column kept beside its matrix: the two layout steps of a keep-dimension reduction, read at an index.

  A vector of `a` entries cast to an `a × 1` column reads, at row p, the vector's entry p; an `a × 1` column broadcast
  over `b` columns reads, at (p, c), the column's entry at row p. Together: a per-row quantity (a row's maximum, a
  row's sum) placed beside every entry of its row.
-/
import Idealize.ShloMosaic.Lib.Pipeline.Value
import Idealize.ShloMosaic.Lib.ValueIdx

noncomputable section

namespace Idealize.ShloMosaic.Column

open Idealize.ShloMosaic Idealize.ShloMosaic.ValueIdx

variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector cast to a column and broadcast over the columns reads, at `(p, c)`, the vector at `p`. -/
theorem column_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

end Idealize.ShloMosaic.Column

end
-- ==== Proof.KernelPayload.lean ====
/-
  What the kernel's body stores, read one data row at a time.

  Inside the kernel the features run down the rows of a block and the data rows run along its 16384 columns, so
  column j of a [60, 16384] block is the feature vector of one data row. A layer is W · H + b with the bias b a
  [60, 1] column repeated along the columns; the product's entry (o, j) is ∑ k, W (o, k) * H (k, j), a sum that
  only reads column j of H. Hence each layer acts on every column separately, as the dense layer of `Cert.Mlp` on
  that column's feature vector, and the stored [1, 16384] row holds at column j the whole network applied to the
  pair (x j, y j) that the two input rows hold at column j. Rounding to bf16 on the way into a product is the
  identity on extended reals, and the product's zero accumulator adds nothing.
-/
import proofs.«180051_j45535243272834_2_alg».proof.Proof.Gen.KernelIdeal.Skeleton
import proofs.«180051_j45535243272834_2_alg».proof.Proof.Mlp
import proofs.«180051_j45535243272834_2_alg».proof.Proof.LibPlainDot
import proofs.«180051_j45535243272834_2_alg».proof.Proof.LibColumn
import Idealize.ShloMosaic.Lib.Pipeline.Value
import Idealize.ShloMosaic.Lib.ValueIdx
import Idealize.ShloMosaic.PureOps.Ideal.Laws

noncomputable section

namespace Cert.KernelIdeal.Body

open Idealize.ShloMosaic Idealize.ShloMosaic.ValueIdx Cert.KernelIdeal Cert.KernelIdeal.Facts₀ Cert.Mlp

/-- Column `j` of a block whose rows are features: the feature vector of the data row at column `j`. -/
def col {K : ℕ} (v : (⟨2, ![K, 16384]⟩ : Shape).Idx → EReal) (j : Fin 16384) : Fin K → EReal := fun k => v (ix2 k j)

/-- The product of a hidden layer: the bf16 weights times the activations rounded to bf16, into a zero accumulator. -/
def mm (W : FVec Ideal S60x60 .bf16) (v : FVec Ideal S60x16384 .f32) : FVec Ideal S60x16384 .f32 :=
  matmul dot_S60x60_S60x16384_S60x16384_1_0_0_1_n_n none (shapeCast S60x60 W shapeCasts_S60x60_S60x60)
    (truncf .bf16 v bitsLt_bf16_f32) (constant S60x16384 .f32 0x00000000#32)

/-- The first layer's product: the [60, 2] weights times the two input rows stacked. -/
def mm1 (W : FVec Ideal S60x2 .f32) (x0 x1 : FVec Ideal S1x16384 .f32) : FVec Ideal S60x16384 .f32 :=
  matmul dot_S60x2_S2x16384_S60x16384_1_0_0_1_n_n none W
    (concatenate S2x16384 0 [⟨S1x16384, shapeCast S1x16384 x0 shapeCasts_S1x16384_S1x16384⟩,
      ⟨S1x16384, shapeCast S1x16384 x1 shapeCasts_S1x16384_S1x16384⟩] concatenates_S1x16384_S1x16384_S2x16384_d0)
    (constant S60x16384 .f32 0x00000000#32)

/-- Adding the bias column to a product and applying SiLU. -/
def biasAct (b : FVec Ideal S60x1 .f32) (u : FVec Ideal S60x16384 .f32) : FVec Ideal S60x16384 .f32 :=
  mulf (addf u (broadcastTo S60x16384 (shapeCast S60x1 b shapeCasts_S60x1_S60x1) broadcasts_S60x1_S60x16384))
    (logistic (addf u (broadcastTo S60x16384 (shapeCast S60x1 b shapeCasts_S60x1_S60x1) broadcasts_S60x1_S60x16384)))

/-- The last layer: the [1, 60] weights times the activations, plus the [1, 1] bias repeated along the columns. -/
def last (w : FVec Ideal S1x60 .f32) (b : FVec Ideal S1x1 .f32) (v : FVec Ideal S60x16384 .f32) : FVec Ideal S1x16384 .f32 :=
  addf (matmul dot_S1x60_S60x16384_S1x16384_1_0_0_1_n_n none w v (constant S1x16384 .f32 0x00000000#32))
    (broadcastTo S1x16384 (shapeCast S1x1 b shapeCasts_S1x1_S1x1) broadcasts_S1x1_S1x16384)

/-- The body's first part is three and a half layers: three full layers and the fourth layer's product. -/
theorem pay2_eq (x0 x1 : FVec Ideal S1x16384 .f32) (x2 : FVec Ideal S60x2 .f32) (x3 : FVec Ideal S60x1 .f32)
    (x4 : FVec Ideal S60x60 .bf16) (x5 : FVec Ideal S60x1 .f32) (x6 : FVec Ideal S60x60 .bf16) (x7 : FVec Ideal S60x1 .f32)
    (x8 : FVec Ideal S60x60 .bf16) :
    Gen.k0_pay2 (F := Ideal) x0 x1 x2 x3 x4 x5 x6 x7 x8
      = mm x8 (biasAct x7 (mm x6 (biasAct x5 (mm x4 (biasAct x3 (mm1 x2 x0 x1)))))) := rfl

/-- The body's second part finishes the fourth layer, runs the fifth and sixth, and ends with the last layer. -/
theorem pay1_eq (v36 : FVec Ideal S60x16384 .f32) (v37 : FVec Ideal S60x1 .f32) (v44 : FVec Ideal S60x60 .bf16)
    (v47 : FVec Ideal S60x1 .f32) (v54 : FVec Ideal S60x60 .bf16) (v57 : FVec Ideal S60x1 .f32) (v63 : FVec Ideal S1x60 .f32)
    (v65 : FVec Ideal S1x1 .f32) :
    Gen.k0_pay1 (F := Ideal) v36 v37 v44 v47 v54 v57 v63 v65
      = last v63 v65 (biasAct v57 (mm v54 (biasAct v47 (mm v44 (biasAct v37 v36))))) := rfl

/-- A hidden layer's product at `(o, j)` is row `o` of the weights against column `j` of the activations. -/
theorem mm_apply (W : FVec Ideal S60x60 .bf16) (v : FVec Ideal S60x16384 .f32) (o : Fin 60) (j : Fin 16384) :
    mm W v (ix2 o j) = ∑ k : Fin 60, W (ix2 o k) * v (ix2 k j) := by
  unfold mm
  have e : dot_S60x60_S60x16384_S60x16384_1_0_0_1_n_n
      = PlainDot.dims 60 60 16384 dot_S60x60_S60x16384_S60x16384_1_0_0_1_n_n_wf := rfl
  rw [e, shapeCast_self]
  exact PlainDot.matmul_zero_apply _ none W (truncf .bf16 v bitsLt_bf16_f32) o j

/-- The first layer's product at `(o, j)` is row `o` of the weights against the pair the input rows hold at column `j`. -/
theorem mm1_apply (W : FVec Ideal S60x2 .f32) (x0 x1 : FVec Ideal S1x16384 .f32) (o : Fin 60) (j : Fin 16384) :
    mm1 W x0 x1 (ix2 o j)
      = ∑ k : Fin 2, W (ix2 o k) * pair (x0 (ix2 (0 : Fin 1) j)) (x1 (ix2 (0 : Fin 1) j)) k := by
  unfold mm1
  have e : dot_S60x2_S2x16384_S60x16384_1_0_0_1_n_n
      = PlainDot.dims 60 2 16384 dot_S60x2_S2x16384_S60x16384_1_0_0_1_n_n_wf := rfl
  rw [e, shapeCast_self, shapeCast_self]
  refine (PlainDot.matmul_zero_apply _ none W _ o j).trans ?_
  rw [Fin.sum_univ_two, Fin.sum_univ_two]
  have h0 : concatenate S2x16384 0 [⟨S1x16384, x0⟩, ⟨S1x16384, x1⟩] concatenates_S1x16384_S1x16384_S2x16384_d0
      (ix2 (0 : Fin 2) j) = x0 (ix2 (0 : Fin 1) j) :=
    concatenate_pair_apply_left (0 : Fin 2) x0 x1 concatenates_S1x16384_S1x16384_S2x16384_d0 (ix2 (0 : Fin 2) j) rfl
      (ix2 (0 : Fin 1) j) (fun b => match b with
        | ⟨0, _⟩ => rfl
        | ⟨1, _⟩ => rfl)
  have h1 : concatenate S2x16384 0 [⟨S1x16384, x0⟩, ⟨S1x16384, x1⟩] concatenates_S1x16384_S1x16384_S2x16384_d0
      (ix2 (1 : Fin 2) j) = x1 (ix2 (0 : Fin 1) j) :=
    concatenate_pair_apply_right (0 : Fin 2) x0 x1 concatenates_S1x16384_S1x16384_S2x16384_d0 (ix2 (1 : Fin 2) j) rfl rfl
      (ix2 (0 : Fin 1) j) (fun b => match b with
        | ⟨0, _⟩ => fun hb => absurd rfl hb
        | ⟨1, _⟩ => fun _ => rfl) rfl
  rw [h0, h1]
  rfl

/-- Bias and SiLU at `(o, j)`: SiLU of the entry plus the bias of feature `o`. -/
theorem biasAct_apply (b : FVec Ideal S60x1 .f32) (u : FVec Ideal S60x16384 .f32) (o : Fin 60) (j : Fin 16384) :
    biasAct b u (ix2 o j) = silu (u (ix2 o j) + b (ix2 o (0 : Fin 1))) := by
  have hb : broadcastTo S60x16384 (shapeCast S60x1 b shapeCasts_S60x1_S60x1) broadcasts_S60x1_S60x16384 (ix2 o j)
      = b (ix2 o (0 : Fin 1)) := by
    rw [shapeCast_self]
    exact Column.broadcastTo_a1_ab_apply b broadcasts_S60x1_S60x16384 o j
  unfold biasAct silu
  show (u (ix2 o j) + broadcastTo S60x16384 (shapeCast S60x1 b shapeCasts_S60x1_S60x1) broadcasts_S60x1_S60x16384 (ix2 o j))
      * Ideal.logistic (u (ix2 o j)
        + broadcastTo S60x16384 (shapeCast S60x1 b shapeCasts_S60x1_S60x1) broadcasts_S60x1_S60x16384 (ix2 o j)) = _
  rw [hb]

/-- A hidden layer acts on each column as the dense layer on that column's feature vector. -/
theorem col_layer (W : FVec Ideal S60x60 .bf16) (b : FVec Ideal S60x1 .f32) (v : FVec Ideal S60x16384 .f32) (j : Fin 16384) :
    col (biasAct b (mm W v)) j = dense (fun o k => W (ix2 o k)) (fun o => b (ix2 o (0 : Fin 1))) (col v j) := by
  funext o
  show biasAct b (mm W v) (ix2 o j) = _
  rw [biasAct_apply, mm_apply]
  rfl

/-- The first layer acts on each column as the dense layer on the pair the input rows hold there. -/
theorem col_layer1 (W : FVec Ideal S60x2 .f32) (b : FVec Ideal S60x1 .f32) (x0 x1 : FVec Ideal S1x16384 .f32) (j : Fin 16384) :
    col (biasAct b (mm1 W x0 x1)) j
      = dense (fun o k => W (ix2 o k)) (fun o => b (ix2 o (0 : Fin 1))) (pair (x0 (ix2 (0 : Fin 1) j)) (x1 (ix2 (0 : Fin 1) j))) := by
  funext o
  show biasAct b (mm1 W x0 x1) (ix2 o j) = _
  rw [biasAct_apply, mm1_apply]
  rfl

/-- The last layer at column `j` is the affine map on that column's feature vector. -/
theorem last_apply (w : FVec Ideal S1x60 .f32) (b : FVec Ideal S1x1 .f32) (v : FVec Ideal S60x16384 .f32) (j : Fin 16384) :
    last w b v (ix2 (0 : Fin 1) j) = affine (fun k => w (ix2 (0 : Fin 1) k)) (b (ix2 (0 : Fin 1) (0 : Fin 1))) (col v j) := by
  have e : dot_S1x60_S60x16384_S1x16384_1_0_0_1_n_n
      = PlainDot.dims 1 60 16384 dot_S1x60_S60x16384_S1x16384_1_0_0_1_n_n_wf := rfl
  have hb : broadcastTo S1x16384 (shapeCast S1x1 b shapeCasts_S1x1_S1x1) broadcasts_S1x1_S1x16384 (ix2 (0 : Fin 1) j)
      = b (ix2 (0 : Fin 1) (0 : Fin 1)) := by
    rw [shapeCast_self]
    exact Column.broadcastTo_a1_ab_apply b broadcasts_S1x1_S1x16384 (0 : Fin 1) j
  unfold last affine
  show matmul dot_S1x60_S60x16384_S1x16384_1_0_0_1_n_n none w v (constant S1x16384 .f32 0x00000000#32) (ix2 (0 : Fin 1) j)
      + broadcastTo S1x16384 (shapeCast S1x1 b shapeCasts_S1x1_S1x1) broadcasts_S1x1_S1x16384 (ix2 (0 : Fin 1) j) = _
  rw [hb, e]
  exact congrArg (· + b (ix2 (0 : Fin 1) (0 : Fin 1))) (PlainDot.matmul_zero_apply _ none w v (0 : Fin 1) j)

/-- THE BODY'S STORE at column `j`: the whole network at the pair the two input rows hold at column `j`. -/
theorem payload_apply (x0 x1 : FVec Ideal S1x16384 .f32) (x2 : FVec Ideal S60x2 .f32) (x3 : FVec Ideal S60x1 .f32)
    (x4 : FVec Ideal S60x60 .bf16) (x5 : FVec Ideal S60x1 .f32) (x6 : FVec Ideal S60x60 .bf16) (x7 : FVec Ideal S60x1 .f32)
    (x8 : FVec Ideal S60x60 .bf16) (x9 : FVec Ideal S60x1 .f32) (x10 : FVec Ideal S60x60 .bf16) (x11 : FVec Ideal S60x1 .f32)
    (x12 : FVec Ideal S60x60 .bf16) (x13 : FVec Ideal S60x1 .f32) (x14 : FVec Ideal S1x60 .f32) (x15 : FVec Ideal S1x1 .f32)
    (j : Fin 16384) :
    Gen.k0_pay1 (F := Ideal) (Gen.k0_pay2 (F := Ideal) x0 x1 x2 x3 x4 x5 x6 x7 x8) x9 x10 x11 x12 x13 x14 x15 (ix2 (0 : Fin 1) j)
      = net (fun o k => x2 (ix2 o k)) (fun o => x3 (ix2 o (0 : Fin 1)))
          (fun o k => x4 (ix2 o k)) (fun o => x5 (ix2 o (0 : Fin 1)))
          (fun o k => x6 (ix2 o k)) (fun o => x7 (ix2 o (0 : Fin 1)))
          (fun o k => x8 (ix2 o k)) (fun o => x9 (ix2 o (0 : Fin 1)))
          (fun o k => x10 (ix2 o k)) (fun o => x11 (ix2 o (0 : Fin 1)))
          (fun o k => x12 (ix2 o k)) (fun o => x13 (ix2 o (0 : Fin 1)))
          (fun k => x14 (ix2 (0 : Fin 1) k)) (x15 (ix2 (0 : Fin 1) (0 : Fin 1)))
          (x0 (ix2 (0 : Fin 1) j)) (x1 (ix2 (0 : Fin 1) j)) := by
  rw [pay2_eq, pay1_eq, last_apply, col_layer, col_layer, col_layer, col_layer, col_layer, col_layer1]
  rfl

end Cert.KernelIdeal.Body

end
-- ==== Proof.KernelEntry.lean ====
/-
  The arrays the kernel's windows read, as the region finds them, in terms of the program's arguments.

  Before the kernel is launched the host lays its operands out: each bias vector b of sixty entries becomes a
  [60, 1] column (entry (o, 0) is b o), the one-entry bias of the last layer a [1, 1] array, each of the five
  hidden weight matrices is rounded to bf16 (the identity on extended reals), and each of the two input columns
  x, y of a million rows is turned into a [1, 1000000] row and padded with zeros on the right to 1015808 = 62 · 16384
  entries: entry (0, n) of the padded row is x (n, 0) for every n below a million.
-/
import proofs.«180051_j45535243272834_2_alg».proof.Proof.Gen.KernelIdeal.Frame
import proofs.«180051_j45535243272834_2_alg».proof.Proof.LibColumn
import Idealize.ShloMosaic.Lib.StableHlo.Run
import Idealize.ShloMosaic.Lib.Pipeline.Value
import Idealize.ShloMosaic.Lib.KernelVsHost
import Idealize.ShloMosaic.Lib.ValueIdx
import Idealize.ShloMosaic.PureOps.Ideal

noncomputable section

namespace Cert.KernelIdeal.Entry

open Idealize.ShloMosaic Idealize.ShloMosaic.TcCoe Idealize.SL.Sem Idealize.ShloMosaic.StableHlo
open Idealize.ShloMosaic.ValueIdx Cert.KernelIdeal Cert.KernelIdeal.Facts₀

variable (m : (ℓ : Loc nD τ sig) → Buf (Elt Ideal) ℓ)

/-! ## The bias columns -/

/-- The first layer's bias as the region finds it: the argument vector cast to a column. -/
theorem col_v4 (c : Dev nD) : (Gen.V (F := Ideal) m c main_v4 : S60x1.Idx → EReal)
    = shapeCast S60x1 (m ((c : Thread nD τ).loc main_arg3)) shapeCasts_S60_S60x1 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-- Its entry `(o, 0)` is the argument's entry `o`. -/
theorem bias_v4 (c : Dev nD) : (fun o : Fin 60 => (Gen.V (F := Ideal) m c main_v4 : S60x1.Idx → EReal) (ix2 o (0 : Fin 1)))
    = fun o => (m ((c : Thread nD τ).loc main_arg3) : S60.Idx → EReal) (ix1 o) := by
  funext o
  rw [col_v4]
  exact Column.shapeCast_a_a1_apply _ shapeCasts_S60_S60x1 o (0 : Fin 1)

/-- The second layer's bias as the region finds it: the argument vector cast to a column. -/
theorem col_v5 (c : Dev nD) : (Gen.V (F := Ideal) m c main_v5 : S60x1.Idx → EReal)
    = shapeCast S60x1 (m ((c : Thread nD τ).loc main_arg5)) shapeCasts_S60_S60x1 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-- Its entry `(o, 0)` is the argument's entry `o`. -/
theorem bias_v5 (c : Dev nD) : (fun o : Fin 60 => (Gen.V (F := Ideal) m c main_v5 : S60x1.Idx → EReal) (ix2 o (0 : Fin 1)))
    = fun o => (m ((c : Thread nD τ).loc main_arg5) : S60.Idx → EReal) (ix1 o) := by
  funext o
  rw [col_v5]
  exact Column.shapeCast_a_a1_apply _ shapeCasts_S60_S60x1 o (0 : Fin 1)

/-- The third layer's bias as the region finds it: the argument vector cast to a column. -/
theorem col_v6 (c : Dev nD) : (Gen.V (F := Ideal) m c main_v6 : S60x1.Idx → EReal)
    = shapeCast S60x1 (m ((c : Thread nD τ).loc main_arg7)) shapeCasts_S60_S60x1 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-- Its entry `(o, 0)` is the argument's entry `o`. -/
theorem bias_v6 (c : Dev nD) : (fun o : Fin 60 => (Gen.V (F := Ideal) m c main_v6 : S60x1.Idx → EReal) (ix2 o (0 : Fin 1)))
    = fun o => (m ((c : Thread nD τ).loc main_arg7) : S60.Idx → EReal) (ix1 o) := by
  funext o
  rw [col_v6]
  exact Column.shapeCast_a_a1_apply _ shapeCasts_S60_S60x1 o (0 : Fin 1)

/-- The fourth layer's bias as the region finds it: the argument vector cast to a column. -/
theorem col_v7 (c : Dev nD) : (Gen.V (F := Ideal) m c main_v7 : S60x1.Idx → EReal)
    = shapeCast S60x1 (m ((c : Thread nD τ).loc main_arg9)) shapeCasts_S60_S60x1 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-- Its entry `(o, 0)` is the argument's entry `o`. -/
theorem bias_v7 (c : Dev nD) : (fun o : Fin 60 => (Gen.V (F := Ideal) m c main_v7 : S60x1.Idx → EReal) (ix2 o (0 : Fin 1)))
    = fun o => (m ((c : Thread nD τ).loc main_arg9) : S60.Idx → EReal) (ix1 o) := by
  funext o
  rw [col_v7]
  exact Column.shapeCast_a_a1_apply _ shapeCasts_S60_S60x1 o (0 : Fin 1)

/-- The fifth layer's bias as the region finds it: the argument vector cast to a column. -/
theorem col_v8 (c : Dev nD) : (Gen.V (F := Ideal) m c main_v8 : S60x1.Idx → EReal)
    = shapeCast S60x1 (m ((c : Thread nD τ).loc main_arg11)) shapeCasts_S60_S60x1 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-- Its entry `(o, 0)` is the argument's entry `o`. -/
theorem bias_v8 (c : Dev nD) : (fun o : Fin 60 => (Gen.V (F := Ideal) m c main_v8 : S60x1.Idx → EReal) (ix2 o (0 : Fin 1)))
    = fun o => (m ((c : Thread nD τ).loc main_arg11) : S60.Idx → EReal) (ix1 o) := by
  funext o
  rw [col_v8]
  exact Column.shapeCast_a_a1_apply _ shapeCasts_S60_S60x1 o (0 : Fin 1)

/-- The sixth layer's bias as the region finds it: the argument vector cast to a column. -/
theorem col_v9 (c : Dev nD) : (Gen.V (F := Ideal) m c main_v9 : S60x1.Idx → EReal)
    = shapeCast S60x1 (m ((c : Thread nD τ).loc main_arg13)) shapeCasts_S60_S60x1 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-- Its entry `(o, 0)` is the argument's entry `o`. -/
theorem bias_v9 (c : Dev nD) : (fun o : Fin 60 => (Gen.V (F := Ideal) m c main_v9 : S60x1.Idx → EReal) (ix2 o (0 : Fin 1)))
    = fun o => (m ((c : Thread nD τ).loc main_arg13) : S60.Idx → EReal) (ix1 o) := by
  funext o
  rw [col_v9]
  exact Column.shapeCast_a_a1_apply _ shapeCasts_S60_S60x1 o (0 : Fin 1)

/-- The last layer's one-entry bias as the region finds it: the argument cast to a [1, 1] array. -/
theorem col_v10 (c : Dev nD) : (Gen.V (F := Ideal) m c main_v10 : S1x1.Idx → EReal)
    = shapeCast S1x1 (m ((c : Thread nD τ).loc main_arg15)) shapeCasts_S1_S1x1 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-- Its one entry is the argument's one entry. -/
theorem bias_v10 (c : Dev nD) : (Gen.V (F := Ideal) m c main_v10 : S1x1.Idx → EReal) (ix2 (0 : Fin 1) (0 : Fin 1))
    = (m ((c : Thread nD τ).loc main_arg15) : S1.Idx → EReal) (ix1 (0 : Fin 1)) := by
  rw [col_v10]
  exact Column.shapeCast_a_a1_apply _ shapeCasts_S1_S1x1 (0 : Fin 1) (0 : Fin 1)

/-! ## The hidden weight matrices -/

/-- The second layer's weights as the region finds them: the argument matrix rounded to bf16, which on extended
    reals changes nothing. -/
theorem weights_v11 (c : Dev nD) : (Gen.V (F := Ideal) m c main_v11 : S60x60.Idx → EReal)
    = (m ((c : Thread nD τ).loc main_arg4) : S60x60.Idx → EReal) := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-- The third layer's weights as the region finds them: the argument matrix rounded to bf16, which on extended
    reals changes nothing. -/
theorem weights_v12 (c : Dev nD) : (Gen.V (F := Ideal) m c main_v12 : S60x60.Idx → EReal)
    = (m ((c : Thread nD τ).loc main_arg6) : S60x60.Idx → EReal) := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-- The fourth layer's weights as the region finds them: the argument matrix rounded to bf16, which on extended
    reals changes nothing. -/
theorem weights_v13 (c : Dev nD) : (Gen.V (F := Ideal) m c main_v13 : S60x60.Idx → EReal)
    = (m ((c : Thread nD τ).loc main_arg8) : S60x60.Idx → EReal) := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-- The fifth layer's weights as the region finds them: the argument matrix rounded to bf16, which on extended
    reals changes nothing. -/
theorem weights_v14 (c : Dev nD) : (Gen.V (F := Ideal) m c main_v14 : S60x60.Idx → EReal)
    = (m ((c : Thread nD τ).loc main_arg10) : S60x60.Idx → EReal) := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-- The sixth layer's weights as the region finds them: the argument matrix rounded to bf16, which on extended
    reals changes nothing. -/
theorem weights_v15 (c : Dev nD) : (Gen.V (F := Ideal) m c main_v15 : S60x60.Idx → EReal)
    = (m ((c : Thread nD τ).loc main_arg12) : S60x60.Idx → EReal) := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-! ## The padded input rows -/

/-- A [1000000, 1] column cast to a [1, 1000000] row and padded on the right reads, at `(0, n)` with `n` below a
    million, the column's entry `(n, 0)`. -/
theorem padded_row_apply (x : S1000000x1.Idx → EReal) (z : S_.Idx → EReal) (n : Fin 1000000) (n' : Fin 1015808)
    (hn : n'.val = n.val) :
    pad S1x1015808 ![0, 0] ![0, 15808] ![0, 0] (shapeCast S1x1000000 x shapeCasts_S1000000x1_S1x1000000) z
        pads_S1x1000000_S1x1015808_000_0158080 h_S_ (ix2 (0 : Fin 1) n')
      = x (ix2 n (0 : Fin 1)) := by
  refine (pad_apply_of_inside ![0, 0] ![0, 15808] ![0, 0] _ z pads_S1x1000000_S1x1015808_000_0158080 h_S_
    (ix2 (0 : Fin 1) n') (ix2 (0 : Fin 1) n) (fun a => match a with
      | ⟨0, _⟩ => rfl
      | ⟨1, _⟩ => by show n'.val = 0 + n.val * (0 + 1); omega)).trans ?_
  exact shapeCast_apply x shapeCasts_S1000000x1_S1x1000000 (ix2 (0 : Fin 1) n) (ix2 n (0 : Fin 1)) (by
    rw [Shape.rowMajor_val_two, Shape.rowMajor_val_two]
    show n.val * 1 + 0 = 0 * 1000000 + n.val
    omega)

/-- The first input row as the region finds it. -/
theorem row_v1 (c : Dev nD) : (Gen.V (F := Ideal) m c main_v1 : S1x1015808.Idx → EReal)
    = pad S1x1015808 ![0, 0] ![0, 15808] ![0, 0]
        (shapeCast S1x1000000 (m ((c : Thread nD τ).loc main_arg0)) shapeCasts_S1000000x1_S1x1000000)
        (sitofp (F := Ideal) .f32 (constantI S_ 32 0#32)) pads_S1x1000000_S1x1015808_000_0158080 h_S_ := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-- The second input row as the region finds it. -/
theorem row_v3 (c : Dev nD) : (Gen.V (F := Ideal) m c main_v3 : S1x1015808.Idx → EReal)
    = pad S1x1015808 ![0, 0] ![0, 15808] ![0, 0]
        (shapeCast S1x1000000 (m ((c : Thread nD τ).loc main_arg1)) shapeCasts_S1000000x1_S1x1000000)
        (sitofp (F := Ideal) .f32 (constantI S_ 32 0#32)) pads_S1x1000000_S1x1015808_000_0158080 h_S_ := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-- Entry `(0, n)` of the first padded row, for `n` below a million, is `x (n, 0)`. -/
theorem input_v1 (c : Dev nD) (n : Fin 1000000) (n' : Fin 1015808) (hn : n'.val = n.val) :
    (Gen.V (F := Ideal) m c main_v1 : S1x1015808.Idx → EReal) (ix2 (0 : Fin 1) n')
      = (m ((c : Thread nD τ).loc main_arg0) : S1000000x1.Idx → EReal) (ix2 n (0 : Fin 1)) := by
  rw [row_v1]
  exact padded_row_apply _ _ n n' hn

/-- Entry `(0, n)` of the second padded row, for `n` below a million, is `y (n, 0)`. -/
theorem input_v3 (c : Dev nD) (n : Fin 1000000) (n' : Fin 1015808) (hn : n'.val = n.val) :
    (Gen.V (F := Ideal) m c main_v3 : S1x1015808.Idx → EReal) (ix2 (0 : Fin 1) n')
      = (m ((c : Thread nD τ).loc main_arg1) : S1000000x1.Idx → EReal) (ix2 n (0 : Fin 1)) := by
  rw [row_v3]
  exact padded_row_apply _ _ n n' hn

end Cert.KernelIdeal.Entry

end
-- ==== Proof.KernelValue.lean ====
/-
  What the kernel's program leaves in its result, as one function of the arguments.

  The grid has 62 points. At point t the two input windows and the output window hold columns
  16384 · t … 16384 · t + 16383 of their [1, 1015808] rows, and every weight and bias window holds its whole array.
  By the body's store (KernelPayload) the output block at column j is the network at the pair the input blocks hold
  at column j, that is at the pair the padded input rows hold at column 16384 · t + j: each point writes back a
  block of ONE whole row, `padded`, whose entry (0, i) is the network at the padded rows' entries (0, i). The 62
  blocks tile the row, so after the run the output array is `padded`. The host then keeps the first million
  entries and turns the row into a column: entry (n, 0) of the result is `padded` at (0, n), where the padded input
  rows hold x (n, 0) and y (n, 0) (KernelEntry) — the array G of `Cert.Mlp`.
-/
import proofs.«180051_j45535243272834_2_alg».proof.Proof.Gen.KernelIdeal.Frame
import proofs.«180051_j45535243272834_2_alg».proof.Proof.KernelPayload
import proofs.«180051_j45535243272834_2_alg».proof.Proof.KernelEntry
import proofs.«180051_j45535243272834_2_alg».proof.Proof.Mlp
import Idealize.ShloMosaic.Lib.Pipeline.Value
import Idealize.ShloMosaic.Lib.StableHlo.Run
import Idealize.ShloMosaic.Lib.ValueIdx
import Idealize.ShloMosaic.PureOps.Ideal

noncomputable section

namespace Cert.KernelIdeal.KValue

open Idealize.ShloMosaic Idealize.ShloMosaic.TcCoe Idealize.SL.Sem Idealize.ShloMosaic.StableHlo
open Idealize.ShloMosaic.ValueIdx Cert.KernelIdeal Cert.KernelIdeal.Facts₀ Cert.Mlp

variable (m : (ℓ : Loc nD τ sig) → Buf (Elt Ideal) ℓ) (ρ : Dev nD → PrngReg)

theorem hz : (![0, 0] : Fin 2 → Nat) = fun _ => 0 := funext fun a => by fin_cases a <;> rfl

/-! ## Where each window's block sits -/

/-- The input rows' and the output row's block at point `t` is block `t` along the columns. -/
theorem idx_rows : ∀ t : Fin cfg0.N, win0_0.index t (0 : Fin 2) = 0 ∧ win0_0.index t (1 : Fin 2) = t.val
    ∧ win0_1.index t (0 : Fin 2) = 0 ∧ win0_1.index t (1 : Fin 2) = t.val
    ∧ win0_16.index t (0 : Fin 2) = 0 ∧ win0_16.index t (1 : Fin 2) = t.val :=
  (by decide +kernel : ∀ t : Fin grid0.N, _)

/-- Window 2's block is its whole array at every point. -/
theorem idx_w2 : ∀ t : Fin cfg0.N, win0_2.index t (0 : Fin 2) = 0 ∧ win0_2.index t (1 : Fin 2) = 0 :=
  (by decide +kernel : ∀ t : Fin grid0.N, _)

theorem blk_w2 (c : Dev nD) (t : Fin cfg0.N) :
    (Gen.iblk (F := Ideal) m c 2 t : S60x2.Idx → EReal) = (Gen.V (F := Ideal) m c main_arg2 : S60x2.Idx → EReal) := by
  obtain ⟨e0, e1⟩ := idx_w2 t
  refine funext fun (y : S60x2.Idx) => ?_
  show (Gen.V (F := Ideal) m c main_arg2 : S60x2.Idx → EReal) (((cfg0.win 2).blk t).view.emb y) = _
  refine congrArg (Gen.V (F := Ideal) m c main_arg2 : S60x2.Idx → EReal) (funext fun a => Fin.ext ?_)
  match a with
  | ⟨0, _⟩ => show win0_2.index t (0 : Fin 2) * 60 + 1 * (y 0).val = (y 0).val; omega
  | ⟨1, _⟩ => show win0_2.index t (1 : Fin 2) * 2 + 1 * (y 1).val = (y 1).val; omega

/-- Window 3's block is its whole array at every point. -/
theorem idx_w3 : ∀ t : Fin cfg0.N, win0_3.index t (0 : Fin 2) = 0 ∧ win0_3.index t (1 : Fin 2) = 0 :=
  (by decide +kernel : ∀ t : Fin grid0.N, _)

theorem blk_w3 (c : Dev nD) (t : Fin cfg0.N) :
    (Gen.iblk (F := Ideal) m c 3 t : S60x1.Idx → EReal) = (Gen.V (F := Ideal) m c main_v4 : S60x1.Idx → EReal) := by
  obtain ⟨e0, e1⟩ := idx_w3 t
  refine funext fun (y : S60x1.Idx) => ?_
  show (Gen.V (F := Ideal) m c main_v4 : S60x1.Idx → EReal) (((cfg0.win 3).blk t).view.emb y) = _
  refine congrArg (Gen.V (F := Ideal) m c main_v4 : S60x1.Idx → EReal) (funext fun a => Fin.ext ?_)
  match a with
  | ⟨0, _⟩ => show win0_3.index t (0 : Fin 2) * 60 + 1 * (y 0).val = (y 0).val; omega
  | ⟨1, _⟩ => show win0_3.index t (1 : Fin 2) * 1 + 1 * (y 1).val = (y 1).val; omega

/-- Window 4's block is its whole array at every point. -/
theorem idx_w4 : ∀ t : Fin cfg0.N, win0_4.index t (0 : Fin 2) = 0 ∧ win0_4.index t (1 : Fin 2) = 0 :=
  (by decide +kernel : ∀ t : Fin grid0.N, _)

theorem blk_w4 (c : Dev nD) (t : Fin cfg0.N) :
    (Gen.iblk (F := Ideal) m c 4 t : S60x60.Idx → EReal) = (Gen.V (F := Ideal) m c main_v11 : S60x60.Idx → EReal) := by
  obtain ⟨e0, e1⟩ := idx_w4 t
  refine funext fun (y : S60x60.Idx) => ?_
  show (Gen.V (F := Ideal) m c main_v11 : S60x60.Idx → EReal) (((cfg0.win 4).blk t).view.emb y) = _
  refine congrArg (Gen.V (F := Ideal) m c main_v11 : S60x60.Idx → EReal) (funext fun a => Fin.ext ?_)
  match a with
  | ⟨0, _⟩ => show win0_4.index t (0 : Fin 2) * 60 + 1 * (y 0).val = (y 0).val; omega
  | ⟨1, _⟩ => show win0_4.index t (1 : Fin 2) * 60 + 1 * (y 1).val = (y 1).val; omega

/-- Window 5's block is its whole array at every point. -/
theorem idx_w5 : ∀ t : Fin cfg0.N, win0_5.index t (0 : Fin 2) = 0 ∧ win0_5.index t (1 : Fin 2) = 0 :=
  (by decide +kernel : ∀ t : Fin grid0.N, _)

theorem blk_w5 (c : Dev nD) (t : Fin cfg0.N) :
    (Gen.iblk (F := Ideal) m c 5 t : S60x1.Idx → EReal) = (Gen.V (F := Ideal) m c main_v5 : S60x1.Idx → EReal) := by
  obtain ⟨e0, e1⟩ := idx_w5 t
  refine funext fun (y : S60x1.Idx) => ?_
  show (Gen.V (F := Ideal) m c main_v5 : S60x1.Idx → EReal) (((cfg0.win 5).blk t).view.emb y) = _
  refine congrArg (Gen.V (F := Ideal) m c main_v5 : S60x1.Idx → EReal) (funext fun a => Fin.ext ?_)
  match a with
  | ⟨0, _⟩ => show win0_5.index t (0 : Fin 2) * 60 + 1 * (y 0).val = (y 0).val; omega
  | ⟨1, _⟩ => show win0_5.index t (1 : Fin 2) * 1 + 1 * (y 1).val = (y 1).val; omega

/-- Window 6's block is its whole array at every point. -/
theorem idx_w6 : ∀ t : Fin cfg0.N, win0_6.index t (0 : Fin 2) = 0 ∧ win0_6.index t (1 : Fin 2) = 0 :=
  (by decide +kernel : ∀ t : Fin grid0.N, _)

theorem blk_w6 (c : Dev nD) (t : Fin cfg0.N) :
    (Gen.iblk (F := Ideal) m c 6 t : S60x60.Idx → EReal) = (Gen.V (F := Ideal) m c main_v12 : S60x60.Idx → EReal) := by
  obtain ⟨e0, e1⟩ := idx_w6 t
  refine funext fun (y : S60x60.Idx) => ?_
  show (Gen.V (F := Ideal) m c main_v12 : S60x60.Idx → EReal) (((cfg0.win 6).blk t).view.emb y) = _
  refine congrArg (Gen.V (F := Ideal) m c main_v12 : S60x60.Idx → EReal) (funext fun a => Fin.ext ?_)
  match a with
  | ⟨0, _⟩ => show win0_6.index t (0 : Fin 2) * 60 + 1 * (y 0).val = (y 0).val; omega
  | ⟨1, _⟩ => show win0_6.index t (1 : Fin 2) * 60 + 1 * (y 1).val = (y 1).val; omega

/-- Window 7's block is its whole array at every point. -/
theorem idx_w7 : ∀ t : Fin cfg0.N, win0_7.index t (0 : Fin 2) = 0 ∧ win0_7.index t (1 : Fin 2) = 0 :=
  (by decide +kernel : ∀ t : Fin grid0.N, _)

theorem blk_w7 (c : Dev nD) (t : Fin cfg0.N) :
    (Gen.iblk (F := Ideal) m c 7 t : S60x1.Idx → EReal) = (Gen.V (F := Ideal) m c main_v6 : S60x1.Idx → EReal) := by
  obtain ⟨e0, e1⟩ := idx_w7 t
  refine funext fun (y : S60x1.Idx) => ?_
  show (Gen.V (F := Ideal) m c main_v6 : S60x1.Idx → EReal) (((cfg0.win 7).blk t).view.emb y) = _
  refine congrArg (Gen.V (F := Ideal) m c main_v6 : S60x1.Idx → EReal) (funext fun a => Fin.ext ?_)
  match a with
  | ⟨0, _⟩ => show win0_7.index t (0 : Fin 2) * 60 + 1 * (y 0).val = (y 0).val; omega
  | ⟨1, _⟩ => show win0_7.index t (1 : Fin 2) * 1 + 1 * (y 1).val = (y 1).val; omega

/-- Window 8's block is its whole array at every point. -/
theorem idx_w8 : ∀ t : Fin cfg0.N, win0_8.index t (0 : Fin 2) = 0 ∧ win0_8.index t (1 : Fin 2) = 0 :=
  (by decide +kernel : ∀ t : Fin grid0.N, _)

theorem blk_w8 (c : Dev nD) (t : Fin cfg0.N) :
    (Gen.iblk (F := Ideal) m c 8 t : S60x60.Idx → EReal) = (Gen.V (F := Ideal) m c main_v13 : S60x60.Idx → EReal) := by
  obtain ⟨e0, e1⟩ := idx_w8 t
  refine funext fun (y : S60x60.Idx) => ?_
  show (Gen.V (F := Ideal) m c main_v13 : S60x60.Idx → EReal) (((cfg0.win 8).blk t).view.emb y) = _
  refine congrArg (Gen.V (F := Ideal) m c main_v13 : S60x60.Idx → EReal) (funext fun a => Fin.ext ?_)
  match a with
  | ⟨0, _⟩ => show win0_8.index t (0 : Fin 2) * 60 + 1 * (y 0).val = (y 0).val; omega
  | ⟨1, _⟩ => show win0_8.index t (1 : Fin 2) * 60 + 1 * (y 1).val = (y 1).val; omega

/-- Window 9's block is its whole array at every point. -/
theorem idx_w9 : ∀ t : Fin cfg0.N, win0_9.index t (0 : Fin 2) = 0 ∧ win0_9.index t (1 : Fin 2) = 0 :=
  (by decide +kernel : ∀ t : Fin grid0.N, _)

theorem blk_w9 (c : Dev nD) (t : Fin cfg0.N) :
    (Gen.iblk (F := Ideal) m c 9 t : S60x1.Idx → EReal) = (Gen.V (F := Ideal) m c main_v7 : S60x1.Idx → EReal) := by
  obtain ⟨e0, e1⟩ := idx_w9 t
  refine funext fun (y : S60x1.Idx) => ?_
  show (Gen.V (F := Ideal) m c main_v7 : S60x1.Idx → EReal) (((cfg0.win 9).blk t).view.emb y) = _
  refine congrArg (Gen.V (F := Ideal) m c main_v7 : S60x1.Idx → EReal) (funext fun a => Fin.ext ?_)
  match a with
  | ⟨0, _⟩ => show win0_9.index t (0 : Fin 2) * 60 + 1 * (y 0).val = (y 0).val; omega
  | ⟨1, _⟩ => show win0_9.index t (1 : Fin 2) * 1 + 1 * (y 1).val = (y 1).val; omega

/-- Window 10's block is its whole array at every point. -/
theorem idx_w10 : ∀ t : Fin cfg0.N, win0_10.index t (0 : Fin 2) = 0 ∧ win0_10.index t (1 : Fin 2) = 0 :=
  (by decide +kernel : ∀ t : Fin grid0.N, _)

theorem blk_w10 (c : Dev nD) (t : Fin cfg0.N) :
    (Gen.iblk (F := Ideal) m c 10 t : S60x60.Idx → EReal) = (Gen.V (F := Ideal) m c main_v14 : S60x60.Idx → EReal) := by
  obtain ⟨e0, e1⟩ := idx_w10 t
  refine funext fun (y : S60x60.Idx) => ?_
  show (Gen.V (F := Ideal) m c main_v14 : S60x60.Idx → EReal) (((cfg0.win 10).blk t).view.emb y) = _
  refine congrArg (Gen.V (F := Ideal) m c main_v14 : S60x60.Idx → EReal) (funext fun a => Fin.ext ?_)
  match a with
  | ⟨0, _⟩ => show win0_10.index t (0 : Fin 2) * 60 + 1 * (y 0).val = (y 0).val; omega
  | ⟨1, _⟩ => show win0_10.index t (1 : Fin 2) * 60 + 1 * (y 1).val = (y 1).val; omega

/-- Window 11's block is its whole array at every point. -/
theorem idx_w11 : ∀ t : Fin cfg0.N, win0_11.index t (0 : Fin 2) = 0 ∧ win0_11.index t (1 : Fin 2) = 0 :=
  (by decide +kernel : ∀ t : Fin grid0.N, _)

theorem blk_w11 (c : Dev nD) (t : Fin cfg0.N) :
    (Gen.iblk (F := Ideal) m c 11 t : S60x1.Idx → EReal) = (Gen.V (F := Ideal) m c main_v8 : S60x1.Idx → EReal) := by
  obtain ⟨e0, e1⟩ := idx_w11 t
  refine funext fun (y : S60x1.Idx) => ?_
  show (Gen.V (F := Ideal) m c main_v8 : S60x1.Idx → EReal) (((cfg0.win 11).blk t).view.emb y) = _
  refine congrArg (Gen.V (F := Ideal) m c main_v8 : S60x1.Idx → EReal) (funext fun a => Fin.ext ?_)
  match a with
  | ⟨0, _⟩ => show win0_11.index t (0 : Fin 2) * 60 + 1 * (y 0).val = (y 0).val; omega
  | ⟨1, _⟩ => show win0_11.index t (1 : Fin 2) * 1 + 1 * (y 1).val = (y 1).val; omega

/-- Window 12's block is its whole array at every point. -/
theorem idx_w12 : ∀ t : Fin cfg0.N, win0_12.index t (0 : Fin 2) = 0 ∧ win0_12.index t (1 : Fin 2) = 0 :=
  (by decide +kernel : ∀ t : Fin grid0.N, _)

theorem blk_w12 (c : Dev nD) (t : Fin cfg0.N) :
    (Gen.iblk (F := Ideal) m c 12 t : S60x60.Idx → EReal) = (Gen.V (F := Ideal) m c main_v15 : S60x60.Idx → EReal) := by
  obtain ⟨e0, e1⟩ := idx_w12 t
  refine funext fun (y : S60x60.Idx) => ?_
  show (Gen.V (F := Ideal) m c main_v15 : S60x60.Idx → EReal) (((cfg0.win 12).blk t).view.emb y) = _
  refine congrArg (Gen.V (F := Ideal) m c main_v15 : S60x60.Idx → EReal) (funext fun a => Fin.ext ?_)
  match a with
  | ⟨0, _⟩ => show win0_12.index t (0 : Fin 2) * 60 + 1 * (y 0).val = (y 0).val; omega
  | ⟨1, _⟩ => show win0_12.index t (1 : Fin 2) * 60 + 1 * (y 1).val = (y 1).val; omega

/-- Window 13's block is its whole array at every point. -/
theorem idx_w13 : ∀ t : Fin cfg0.N, win0_13.index t (0 : Fin 2) = 0 ∧ win0_13.index t (1 : Fin 2) = 0 :=
  (by decide +kernel : ∀ t : Fin grid0.N, _)

theorem blk_w13 (c : Dev nD) (t : Fin cfg0.N) :
    (Gen.iblk (F := Ideal) m c 13 t : S60x1.Idx → EReal) = (Gen.V (F := Ideal) m c main_v9 : S60x1.Idx → EReal) := by
  obtain ⟨e0, e1⟩ := idx_w13 t
  refine funext fun (y : S60x1.Idx) => ?_
  show (Gen.V (F := Ideal) m c main_v9 : S60x1.Idx → EReal) (((cfg0.win 13).blk t).view.emb y) = _
  refine congrArg (Gen.V (F := Ideal) m c main_v9 : S60x1.Idx → EReal) (funext fun a => Fin.ext ?_)
  match a with
  | ⟨0, _⟩ => show win0_13.index t (0 : Fin 2) * 60 + 1 * (y 0).val = (y 0).val; omega
  | ⟨1, _⟩ => show win0_13.index t (1 : Fin 2) * 1 + 1 * (y 1).val = (y 1).val; omega

/-- Window 14's block is its whole array at every point. -/
theorem idx_w14 : ∀ t : Fin cfg0.N, win0_14.index t (0 : Fin 2) = 0 ∧ win0_14.index t (1 : Fin 2) = 0 :=
  (by decide +kernel : ∀ t : Fin grid0.N, _)

theorem blk_w14 (c : Dev nD) (t : Fin cfg0.N) :
    (Gen.iblk (F := Ideal) m c 14 t : S1x60.Idx → EReal) = (Gen.V (F := Ideal) m c main_arg14 : S1x60.Idx → EReal) := by
  obtain ⟨e0, e1⟩ := idx_w14 t
  refine funext fun (y : S1x60.Idx) => ?_
  show (Gen.V (F := Ideal) m c main_arg14 : S1x60.Idx → EReal) (((cfg0.win 14).blk t).view.emb y) = _
  refine congrArg (Gen.V (F := Ideal) m c main_arg14 : S1x60.Idx → EReal) (funext fun a => Fin.ext ?_)
  match a with
  | ⟨0, _⟩ => show win0_14.index t (0 : Fin 2) * 1 + 1 * (y 0).val = (y 0).val; omega
  | ⟨1, _⟩ => show win0_14.index t (1 : Fin 2) * 60 + 1 * (y 1).val = (y 1).val; omega

/-- Window 15's block is its whole array at every point. -/
theorem idx_w15 : ∀ t : Fin cfg0.N, win0_15.index t (0 : Fin 2) = 0 ∧ win0_15.index t (1 : Fin 2) = 0 :=
  (by decide +kernel : ∀ t : Fin grid0.N, _)

theorem blk_w15 (c : Dev nD) (t : Fin cfg0.N) :
    (Gen.iblk (F := Ideal) m c 15 t : S1x1.Idx → EReal) = (Gen.V (F := Ideal) m c main_v10 : S1x1.Idx → EReal) := by
  obtain ⟨e0, e1⟩ := idx_w15 t
  refine funext fun (y : S1x1.Idx) => ?_
  show (Gen.V (F := Ideal) m c main_v10 : S1x1.Idx → EReal) (((cfg0.win 15).blk t).view.emb y) = _
  refine congrArg (Gen.V (F := Ideal) m c main_v10 : S1x1.Idx → EReal) (funext fun a => Fin.ext ?_)
  match a with
  | ⟨0, _⟩ => show win0_15.index t (0 : Fin 2) * 1 + 1 * (y 0).val = (y 0).val; omega
  | ⟨1, _⟩ => show win0_15.index t (1 : Fin 2) * 1 + 1 * (y 1).val = (y 1).val; omega

/-- Input window 0's block at point `t`, column `j`, is its padded row read where the output's block sits. -/
theorem blk_row0 (c : Dev nD) (t : Fin cfg0.N) (j : Fin 16384) :
    (Gen.iblk (F := Ideal) m c 0 t : S1x16384.Idx → EReal) (ix2 (0 : Fin 1) j)
      = (Gen.V (F := Ideal) m c main_v1 : S1x1015808.Idx → EReal) (((cfg0.win 16).blk t).view.emb (ix2 (0 : Fin 1) j)) := by
  obtain ⟨e0, e1, e2, e3, e4, e5⟩ := idx_rows t
  show (Gen.V (F := Ideal) m c main_v1 : S1x1015808.Idx → EReal) (((cfg0.win 0).blk t).view.emb (ix2 (0 : Fin 1) j)) = _
  refine congrArg (Gen.V (F := Ideal) m c main_v1 : S1x1015808.Idx → EReal) (funext fun a => Fin.ext ?_)
  match a with
  | ⟨0, _⟩ => show win0_0.index t (0 : Fin 2) * 1 + 1 * 0 = win0_16.index t (0 : Fin 2) * 1 + 1 * 0; omega
  | ⟨1, _⟩ => show win0_0.index t (1 : Fin 2) * 16384 + 1 * j.val = win0_16.index t (1 : Fin 2) * 16384 + 1 * j.val; omega

/-- Input window 1's block at point `t`, column `j`, is its padded row read where the output's block sits. -/
theorem blk_row1 (c : Dev nD) (t : Fin cfg0.N) (j : Fin 16384) :
    (Gen.iblk (F := Ideal) m c 1 t : S1x16384.Idx → EReal) (ix2 (0 : Fin 1) j)
      = (Gen.V (F := Ideal) m c main_v3 : S1x1015808.Idx → EReal) (((cfg0.win 16).blk t).view.emb (ix2 (0 : Fin 1) j)) := by
  obtain ⟨e0, e1, e2, e3, e4, e5⟩ := idx_rows t
  show (Gen.V (F := Ideal) m c main_v3 : S1x1015808.Idx → EReal) (((cfg0.win 1).blk t).view.emb (ix2 (0 : Fin 1) j)) = _
  refine congrArg (Gen.V (F := Ideal) m c main_v3 : S1x1015808.Idx → EReal) (funext fun a => Fin.ext ?_)
  match a with
  | ⟨0, _⟩ => show win0_1.index t (0 : Fin 2) * 1 + 1 * 0 = win0_16.index t (0 : Fin 2) * 1 + 1 * 0; omega
  | ⟨1, _⟩ => show win0_1.index t (1 : Fin 2) * 16384 + 1 * j.val = win0_16.index t (1 : Fin 2) * 16384 + 1 * j.val; omega

/-! ## The padded result row -/

/-- The output array after the run: entry `(0, i)` is the network at the padded input rows' entries `(0, i)`, with the
    weights and biases as the region finds them. -/
def padded (c : Dev nD) : S1x1015808.Idx → EReal := fun i =>
  net (fun o k => (Gen.V (F := Ideal) m c main_arg2 : S60x2.Idx → EReal) (ix2 o k)) (fun o => (Gen.V (F := Ideal) m c main_v4 : S60x1.Idx → EReal) (ix2 o (0 : Fin 1)))
    (fun o k => (Gen.V (F := Ideal) m c main_v11 : S60x60.Idx → EReal) (ix2 o k)) (fun o => (Gen.V (F := Ideal) m c main_v5 : S60x1.Idx → EReal) (ix2 o (0 : Fin 1)))
    (fun o k => (Gen.V (F := Ideal) m c main_v12 : S60x60.Idx → EReal) (ix2 o k)) (fun o => (Gen.V (F := Ideal) m c main_v6 : S60x1.Idx → EReal) (ix2 o (0 : Fin 1)))
    (fun o k => (Gen.V (F := Ideal) m c main_v13 : S60x60.Idx → EReal) (ix2 o k)) (fun o => (Gen.V (F := Ideal) m c main_v7 : S60x1.Idx → EReal) (ix2 o (0 : Fin 1)))
    (fun o k => (Gen.V (F := Ideal) m c main_v14 : S60x60.Idx → EReal) (ix2 o k)) (fun o => (Gen.V (F := Ideal) m c main_v8 : S60x1.Idx → EReal) (ix2 o (0 : Fin 1)))
    (fun o k => (Gen.V (F := Ideal) m c main_v15 : S60x60.Idx → EReal) (ix2 o k)) (fun o => (Gen.V (F := Ideal) m c main_v9 : S60x1.Idx → EReal) (ix2 o (0 : Fin 1)))
    (fun k => (Gen.V (F := Ideal) m c main_arg14 : S1x60.Idx → EReal) (ix2 (0 : Fin 1) k)) ((Gen.V (F := Ideal) m c main_v10 : S1x1.Idx → EReal) (ix2 (0 : Fin 1) (0 : Fin 1)))
    ((Gen.V (F := Ideal) m c main_v1 : S1x1015808.Idx → EReal) i) ((Gen.V (F := Ideal) m c main_v3 : S1x1015808.Idx → EReal) i)

/-- WHAT POINT `t` WRITES BACK is block `t` of the padded row. -/
theorem flushed_eq (c : Dev nD) (t : Fin cfg0.N) :
    (Gen.dats m 0 c).flushed 16 t = ((cfg0.win 16).blk t).view.read (Elt Ideal) (padded m c) := by
  show (cfg0.win 16).cut (grid0.coords t) ((Gen.dats m 0 c).after 16 t) = _
  rw [Gen.after0_16]
  unfold Gen.out0_16
  rw [View.canon_unit_zero hz]
  simp only [View.ld_unit_zero (S := S1x16384) hz, View.ld_unit_zero (S := S60x2) hz, View.ld_unit_zero (S := S60x1) hz,
    View.ld_unit_zero (S := S60x60) hz, View.ld_unit_zero (S := S1x60) hz, View.ld_unit_zero (S := S1x1) hz]
  refine funext fun (y : S1x16384.Idx) => ?_
  obtain ⟨u, j, rfl⟩ : ∃ (u : Fin 1) (j : Fin 16384), y = ix2 u j := ⟨y 0, y 1, eq_ix2 y⟩
  obtain rfl : u = 0 := Subsingleton.elim _ _
  refine (Body.payload_apply (Gen.iblk (F := Ideal) m c 0 t) (Gen.iblk (F := Ideal) m c 1 t) (Gen.iblk (F := Ideal) m c 2 t)
    (Gen.iblk (F := Ideal) m c 3 t) (Gen.iblk (F := Ideal) m c 4 t) (Gen.iblk (F := Ideal) m c 5 t) (Gen.iblk (F := Ideal) m c 6 t)
    (Gen.iblk (F := Ideal) m c 7 t) (Gen.iblk (F := Ideal) m c 8 t) (Gen.iblk (F := Ideal) m c 9 t) (Gen.iblk (F := Ideal) m c 10 t)
    (Gen.iblk (F := Ideal) m c 11 t) (Gen.iblk (F := Ideal) m c 12 t) (Gen.iblk (F := Ideal) m c 13 t) (Gen.iblk (F := Ideal) m c 14 t)
    (Gen.iblk (F := Ideal) m c 15 t) j).trans ?_
  rw [blk_w2 m c t, blk_w3 m c t, blk_w4 m c t, blk_w5 m c t, blk_w6 m c t, blk_w7 m c t, blk_w8 m c t, blk_w9 m c t,
    blk_w10 m c t, blk_w11 m c t, blk_w12 m c t, blk_w13 m c t, blk_w14 m c t, blk_w15 m c t, blk_row0 m c t j, blk_row1 m c t j]
  rfl

/-! ## The blocks tile the row -/

/-- An index of the output array is in point `t`'s block iff each coordinate is in the block's range on its axis. -/
theorem mem_blk (t : Fin cfg0.N) (i : S1x1015808.Idx) :
    i ∈ ((cfg0.win 16).blk t).view.set ↔ ∀ a : Fin 2, win0_16.index t a * S1x16384.size a ≤ (i a).val
      ∧ (i a).val < win0_16.index t a * S1x16384.size a + S1x16384.size a := by
  show i ∈ ((View.whole main_v16).slice (win0_16.rect t)).set ↔ _
  rw [View.set_slice_whole, Rect.mem_set_unit]
  exact Iff.rfl

/-- Every block along the columns is some point's. -/
theorem idx_onto : ∀ q : Fin 62, ∃ t : Fin cfg0.N, win0_16.index t = ![0, q.val] :=
  (by decide +kernel : ∀ q : Fin 62, ∃ t : Fin grid0.N, win0_16.index t = ![0, q.val])

/-- Column `i` of the output row lies in the block of point `i / 16384`. -/
theorem cover (i : S1x1015808.Idx) :
    ∃ t : Fin cfg0.N, (cfg0.win 16).flush t = true ∧ i ∈ ((cfg0.win 16).blk t).view.set := by
  have hi0 : (i 0).val < 1 := (i 0).isLt
  have hi1 : (i 1).val < 1015808 := (i 1).isLt
  obtain ⟨t, ht⟩ := idx_onto ⟨(i 1).val / 16384, by omega⟩
  have q0 : win0_16.index t (0 : Fin 2) = 0 := congrFun ht 0
  have q1 : win0_16.index t (1 : Fin 2) = (i 1).val / 16384 := congrFun ht 1
  refine ⟨t, Gen.flush0_16 t, ?_⟩
  rw [mem_blk]
  intro a
  match a with
  | ⟨0, _⟩ => show win0_16.index t (0 : Fin 2) * 1 ≤ (i 0).val ∧ (i 0).val < win0_16.index t (0 : Fin 2) * 1 + 1; omega
  | ⟨1, _⟩ =>
    show win0_16.index t (1 : Fin 2) * 16384 ≤ (i 1).val ∧ (i 1).val < win0_16.index t (1 : Fin 2) * 16384 + 16384
    omega

/-- THE OUTPUT ARRAY after the run is the padded row. -/
theorem final (c : Dev nD) : (Gen.dats m 0 c).arrAt 16 cfg0.N = padded m c :=
  (Gen.dats m 0 c).arrAt_eq_of_cover 16 (padded m c) (fun t _ => flushed_eq m c t) cover

end Cert.KernelIdeal.KValue

end
-- ==== Proof.KernelResult.lean ====
/-
  The kernel's program ends with the array G in its result and its arguments untouched.

  After the kernel the host keeps the first million columns of the [1, 1015808] output row and turns that row into a
  [1000000, 1] column: entry (n, 0) of the result is entry (0, n) of the output row. The output row is `padded`
  (KernelValue): the network at the padded input rows' entries (0, n), which for n below a million are x (n, 0) and
  y (n, 0), with every bias column holding the bias vector and every weight window the weight matrix (KernelEntry).
  That is G at (n, 0).
-/
import proofs.«180051_j45535243272834_2_alg».proof.Proof.KernelValue

noncomputable section

namespace Cert.KernelIdeal.KValue

open Idealize.ShloMosaic Idealize.ShloMosaic.TcCoe Idealize.SL.Sem Idealize.ShloMosaic.StableHlo
open Idealize.ShloMosaic.ValueIdx Cert.KernelIdeal Cert.KernelIdeal.Facts₀ Cert.Mlp

variable (m : (ℓ : Loc nD τ sig) → Buf (Elt Ideal) ℓ) (ρ : Dev nD → PrngReg)

/-- The padded row at a column below a million is G at that row. -/
theorem padded_apply (c : Dev nD) (n : Fin 1000000) (n' : Fin 1015808) (hn : n'.val = n.val) :
    padded m c (ix2 (0 : Fin 1) n') = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (ix2 n (0 : Fin 1)) := by
  unfold padded G
  rw [Entry.bias_v4 m c, Entry.bias_v5 m c, Entry.bias_v6 m c, Entry.bias_v7 m c, Entry.bias_v8 m c, Entry.bias_v9 m c,
    Entry.bias_v10 m c, Entry.weights_v11 m c, Entry.weights_v12 m c, Entry.weights_v13 m c, Entry.weights_v14 m c,
    Entry.weights_v15 m c, Entry.input_v1 m c n n' hn, Entry.input_v3 m c n n' hn, Gen.V_main_arg2 m c, Gen.V_main_arg14 m c]

/-- THE RESULT the host's last two operations leave: the array G of the sixteen arguments. -/
theorem result_eq (c : Dev nD) :
    (Pipeline.afterTail₀ cfgs (Gen.dats (F := Ideal) m) 0 (Gen.V0 m) [Gen.hostOps1] c main_v18 : S1000000x1.Idx → EReal)
      = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  unfold Pipeline.afterTail₀
  show StableHlo.after Gen.hostOps1 _ (Proc.devRef .tc main_v18) = _
  after_results
  rw [show Pipeline.withArrays (cfgs 0).spec c (Gen.V0 m c) (fun w => (Gen.dats m 0 c).arrAt w (cfgs 0).N)
      (Proc.devRef .tc main_v16) = padded m c from
    (Pipeline.withArrays_arr spec0 Gen.launch0.win.arr_inj c _ _ 16).trans (final m c)]
  refine funext fun (i : S1000000x1.Idx) => ?_
  obtain ⟨n, u, rfl⟩ : ∃ (n : Fin 1000000) (u : Fin 1), i = ix2 n u := ⟨i 0, i 1, eq_ix2 i⟩
  obtain rfl : u = 0 := Subsingleton.elim _ _
  show shapeCast S1000000x1 (extractStridedSlice S1x1000000 ![0, 0] (padded m c) slices_S1x1015808_S1x1000000_0_0)
    shapeCasts_S1x1000000_S1000000x1 (ix2 n (0 : Fin 1)) = _
  refine (shapeCast_apply _ shapeCasts_S1x1000000_S1000000x1 (ix2 n (0 : Fin 1)) (ix2 (0 : Fin 1) n) (by
    rw [Shape.rowMajor_val_two, Shape.rowMajor_val_two]
    show 0 * 1000000 + n.val = n.val * 1 + 0
    omega)).trans ?_
  refine (extractStridedSlice_apply ![0, 0] (padded m c) slices_S1x1015808_S1x1000000_0_0 (ix2 (0 : Fin 1) n)
    (ix2 (0 : Fin 1) (⟨n.val, by have := n.isLt; omega⟩ : Fin 1015808)) (fun a => match a with
      | ⟨0, _⟩ => rfl
      | ⟨1, _⟩ => by show n.val = 0 + n.val; omega)).trans ?_
  exact padded_apply m c n ⟨n.val, by have := n.isLt; omega⟩ rfl

/-- THE RUN: every weakly fair execution of the kernel's program terminates with G in its result and every
    argument array as it was. -/
theorem run : θ_run defs (onTc (τ := τ) (main (F := Ideal))) ⟨m, fun _ => 0, ρ⟩ (fun r => ∀ c : Dev nD,
      r.2.mem ((c : Thread nD τ).loc main_v18) = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)) :=
  (θ_run defs _ _).mono (fun r h c =>
    ⟨((h c).2 main_v18 (Pipeline.mem_restRefs_of main_v18 (by decide) (by decide))).trans (result_eq m c),
      ((h c).2 main_arg0 (Pipeline.mem_restRefs_of main_arg0 (by decide) (by decide))).trans (Gen.W_main_arg0 m (Gen.dats m) c),
      ((h c).2 main_arg1 (Pipeline.mem_restRefs_of main_arg1 (by decide) (by decide))).trans (Gen.W_main_arg1 m (Gen.dats m) c),
      ((h c).1 2).trans (((Gen.dats m 0 c).arrAt_in 2 rfl _).trans ((Gen.A_eq m c 2).trans (Gen.V_main_arg2 m c))),
      ((h c).2 main_arg3 (Pipeline.mem_restRefs_of main_arg3 (by decide) (by decide))).trans (Gen.W_main_arg3 m (Gen.dats m) c),
      ((h c).2 main_arg4 (Pipeline.mem_restRefs_of main_arg4 (by decide) (by decide))).trans (Gen.W_main_arg4 m (Gen.dats m) c),
      ((h c).2 main_arg5 (Pipeline.mem_restRefs_of main_arg5 (by decide) (by decide))).trans (Gen.W_main_arg5 m (Gen.dats m) c),
      ((h c).2 main_arg6 (Pipeline.mem_restRefs_of main_arg6 (by decide) (by decide))).trans (Gen.W_main_arg6 m (Gen.dats m) c),
      ((h c).2 main_arg7 (Pipeline.mem_restRefs_of main_arg7 (by decide) (by decide))).trans (Gen.W_main_arg7 m (Gen.dats m) c),
      ((h c).2 main_arg8 (Pipeline.mem_restRefs_of main_arg8 (by decide) (by decide))).trans (Gen.W_main_arg8 m (Gen.dats m) c),
      ((h c).2 main_arg9 (Pipeline.mem_restRefs_of main_arg9 (by decide) (by decide))).trans (Gen.W_main_arg9 m (Gen.dats m) c),
      ((h c).2 main_arg10 (Pipeline.mem_restRefs_of main_arg10 (by decide) (by decide))).trans (Gen.W_main_arg10 m (Gen.dats m) c),
      ((h c).2 main_arg11 (Pipeline.mem_restRefs_of main_arg11 (by decide) (by decide))).trans (Gen.W_main_arg11 m (Gen.dats m) c),
      ((h c).2 main_arg12 (Pipeline.mem_restRefs_of main_arg12 (by decide) (by decide))).trans (Gen.W_main_arg12 m (Gen.dats m) c),
      ((h c).2 main_arg13 (Pipeline.mem_restRefs_of main_arg13 (by decide) (by decide))).trans (Gen.W_main_arg13 m (Gen.dats m) c),
      ((h c).1 14).trans (((Gen.dats m 0 c).arrAt_in 14 rfl _).trans ((Gen.A_eq m c 14).trans (Gen.V_main_arg14 m c))),
      ((h c).2 main_arg15 (Pipeline.mem_restRefs_of main_arg15 (by decide) (by decide))).trans (Gen.W_main_arg15 m (Gen.dats m) c)⟩)
    (Gen.run_main m ρ)

end Cert.KernelIdeal.KValue

end
-- ==== Proof.RefValue.lean ====
/-
  The reference, one data row at a time.

  The reference keeps the data rows down the rows of its arrays: the activations are [1000000, 60], a layer is
  H · Wᵀ + b with the bias repeated down the rows, entry (n, o) of the product being ∑ k, H (n, k) * W (o, k) — a
  sum that only reads row n of H — and SiLU is spelt out as z * (1 / (1 + exp (-z))). So each layer acts on every
  row separately, as the dense layer of `Cert.Mlp` on that row's feature vector; the products W (o, k) * h k of the
  dense layer are the reference's h k * W (o, k) with the factors exchanged, which on extended reals is the same
  number. The last layer H · w7ᵀ + b7 is the affine map, and the result's entry (n, 0) is the network at the pair
  (x (n, 0), y (n, 0)): the array G.
-/
import proofs.«180051_j45535243272834_2_alg».proof.Proof.Gen.ReferenceIdeal.Read
import proofs.«180051_j45535243272834_2_alg».proof.Proof.Mlp
import proofs.«180051_j45535243272834_2_alg».proof.Proof.LibPlainDot
import Idealize.ShloMosaic.Lib.Pipeline.Value
import Idealize.ShloMosaic.Lib.ValueIdx
import Idealize.ShloMosaic.PureOps.Ideal.Laws

noncomputable section

namespace Cert.ReferenceIdeal.RefValue

open Idealize.ShloMosaic Idealize.ShloMosaic.ValueIdx Cert.ReferenceIdeal Cert.ReferenceIdeal.Facts₀ Cert.ReferenceIdeal.Read Cert.Mlp

/-! ## The reference's operations, grouped by layer -/

/-- The constant one, repeated over a [1000000, 60] array. -/
def ones : FVec Ideal S1000000x60 .f32 :=
  broadcastInDim S1000000x60 ![] bcast_S_S1000000x60 (constant (F := Ideal) S_ .f32 0x3F800000#32)

/-- SiLU as the reference spells it: `z * (1 / (1 + exp (-z)))`, entry by entry. -/
def hostSilu (z : FVec Ideal S1000000x60 .f32) : FVec Ideal S1000000x60 .f32 :=
  mulf z (Host.divf (F := Ideal) ones (addf ones (Host.exp (F := Ideal) (Host.negf (F := Ideal) z))))

/-- The bias of a layer repeated down the rows. -/
def biasRows (b : FVec Ideal S60 .f32) : FVec Ideal S1000000x60 .f32 :=
  broadcastInDim S1000000x60 ![0, 1] bcast_S1x60_S1000000x60_0_1 (broadcastInDim S1x60 ![1] bcast_S60_S1x60_1 b)

/-- A hidden layer: the activations times the transposed weights, plus the bias, through SiLU. -/
def hostLayer (H : FVec Ideal S1000000x60 .f32) (W : FVec Ideal S60x60 .f32) (b : FVec Ideal S60 .f32) :
    FVec Ideal S1000000x60 .f32 :=
  hostSilu (addf (Host.dotGeneral (F := Ideal) dot_S1000000x60_S60x60_S1000000x60_1_0_0_1_n_n none H
    (transpose S60x60 [1, 0] W transposes_S60x60_S60x60_1_0)) (biasRows b))

/-- The first layer: the two input columns side by side, times the transposed weights, plus the bias, through SiLU. -/
def hostLayer1 (x y : FVec Ideal S1000000x1 .f32) (W : FVec Ideal S60x2 .f32) (b : FVec Ideal S60 .f32) :
    FVec Ideal S1000000x60 .f32 :=
  hostSilu (addf (Host.dotGeneral (F := Ideal) dot_S1000000x2_S2x60_S1000000x60_1_0_0_1_n_n none
    (concatenate S1000000x2 1 [⟨S1000000x1, x⟩, ⟨S1000000x1, y⟩] concatenates_S1000000x1_S1000000x1_S1000000x2_d1)
    (transpose S2x60 [1, 0] W transposes_S60x2_S2x60_1_0)) (biasRows b))

/-- The last layer: the activations times the transposed [1, 60] weights, plus the one-entry bias repeated. -/
def hostLast (H : FVec Ideal S1000000x60 .f32) (w : FVec Ideal S1x60 .f32) (b : FVec Ideal S1 .f32) :
    FVec Ideal S1000000x1 .f32 :=
  addf (Host.dotGeneral (F := Ideal) dot_S1000000x60_S60x1_S1000000x1_1_0_0_1_n_n none H
    (transpose S60x1 [1, 0] w transposes_S1x60_S60x1_1_0))
    (broadcastInDim S1000000x1 ![0, 1] bcast_S1x1_S1000000x1_0_1 (broadcastInDim S1x1 ![1] bcast_S1_S1x1_1 b))

/-! ## The generated stages are these layers -/

theorem v6_eq (x0 : (⟨S1000000x1, .f32⟩ : BufTy).Contents (Elt Ideal)) (x1 : (⟨S1000000x1, .f32⟩ : BufTy).Contents (Elt Ideal)) (x2 : (⟨S60x2, .f32⟩ : BufTy).Contents (Elt Ideal)) (x3 : (⟨S60, .f32⟩ : BufTy).Contents (Elt Ideal)) :
    val_main_v6 (F := Ideal) x0 x1 x2 x3 = hostLayer1 x0 x1 x2 x3 := rfl
theorem v12_eq (x0 : (⟨S1000000x1, .f32⟩ : BufTy).Contents (Elt Ideal)) (x1 : (⟨S1000000x1, .f32⟩ : BufTy).Contents (Elt Ideal)) (x2 : (⟨S60x2, .f32⟩ : BufTy).Contents (Elt Ideal)) (x3 : (⟨S60, .f32⟩ : BufTy).Contents (Elt Ideal)) (x4 : (⟨S60x60, .f32⟩ : BufTy).Contents (Elt Ideal)) (x5 : (⟨S60, .f32⟩ : BufTy).Contents (Elt Ideal)) :
    val_main_v12 (F := Ideal) x0 x1 x2 x3 x4 x5 = hostLayer (val_main_v6 (F := Ideal) x0 x1 x2 x3) x4 x5 := rfl
theorem v18_eq (x0 : (⟨S1000000x1, .f32⟩ : BufTy).Contents (Elt Ideal)) (x1 : (⟨S1000000x1, .f32⟩ : BufTy).Contents (Elt Ideal)) (x2 : (⟨S60x2, .f32⟩ : BufTy).Contents (Elt Ideal)) (x3 : (⟨S60, .f32⟩ : BufTy).Contents (Elt Ideal)) (x4 : (⟨S60x60, .f32⟩ : BufTy).Contents (Elt Ideal)) (x5 : (⟨S60, .f32⟩ : BufTy).Contents (Elt Ideal)) (x6 : (⟨S60x60, .f32⟩ : BufTy).Contents (Elt Ideal)) (x7 : (⟨S60, .f32⟩ : BufTy).Contents (Elt Ideal)) :
    val_main_v18 (F := Ideal) x0 x1 x2 x3 x4 x5 x6 x7 = hostLayer (val_main_v12 (F := Ideal) x0 x1 x2 x3 x4 x5) x6 x7 := rfl
theorem v24_eq (x0 : (⟨S1000000x1, .f32⟩ : BufTy).Contents (Elt Ideal)) (x1 : (⟨S1000000x1, .f32⟩ : BufTy).Contents (Elt Ideal)) (x2 : (⟨S60x2, .f32⟩ : BufTy).Contents (Elt Ideal)) (x3 : (⟨S60, .f32⟩ : BufTy).Contents (Elt Ideal)) (x4 : (⟨S60x60, .f32⟩ : BufTy).Contents (Elt Ideal)) (x5 : (⟨S60, .f32⟩ : BufTy).Contents (Elt Ideal)) (x6 : (⟨S60x60, .f32⟩ : BufTy).Contents (Elt Ideal)) (x7 : (⟨S60, .f32⟩ : BufTy).Contents (Elt Ideal)) (x8 : (⟨S60x60, .f32⟩ : BufTy).Contents (Elt Ideal)) (x9 : (⟨S60, .f32⟩ : BufTy).Contents (Elt Ideal)) :
    val_main_v24 (F := Ideal) x0 x1 x2 x3 x4 x5 x6 x7 x8 x9 = hostLayer (val_main_v18 (F := Ideal) x0 x1 x2 x3 x4 x5 x6 x7) x8 x9 := rfl
theorem v30_eq (x0 : (⟨S1000000x1, .f32⟩ : BufTy).Contents (Elt Ideal)) (x1 : (⟨S1000000x1, .f32⟩ : BufTy).Contents (Elt Ideal)) (x2 : (⟨S60x2, .f32⟩ : BufTy).Contents (Elt Ideal)) (x3 : (⟨S60, .f32⟩ : BufTy).Contents (Elt Ideal)) (x4 : (⟨S60x60, .f32⟩ : BufTy).Contents (Elt Ideal)) (x5 : (⟨S60, .f32⟩ : BufTy).Contents (Elt Ideal)) (x6 : (⟨S60x60, .f32⟩ : BufTy).Contents (Elt Ideal)) (x7 : (⟨S60, .f32⟩ : BufTy).Contents (Elt Ideal)) (x8 : (⟨S60x60, .f32⟩ : BufTy).Contents (Elt Ideal)) (x9 : (⟨S60, .f32⟩ : BufTy).Contents (Elt Ideal)) (x10 : (⟨S60x60, .f32⟩ : BufTy).Contents (Elt Ideal)) (x11 : (⟨S60, .f32⟩ : BufTy).Contents (Elt Ideal)) :
    val_main_v30 (F := Ideal) x0 x1 x2 x3 x4 x5 x6 x7 x8 x9 x10 x11 = hostLayer (val_main_v24 (F := Ideal) x0 x1 x2 x3 x4 x5 x6 x7 x8 x9) x10 x11 := rfl
theorem v36_eq (x0 : (⟨S1000000x1, .f32⟩ : BufTy).Contents (Elt Ideal)) (x1 : (⟨S1000000x1, .f32⟩ : BufTy).Contents (Elt Ideal)) (x2 : (⟨S60x2, .f32⟩ : BufTy).Contents (Elt Ideal)) (x3 : (⟨S60, .f32⟩ : BufTy).Contents (Elt Ideal)) (x4 : (⟨S60x60, .f32⟩ : BufTy).Contents (Elt Ideal)) (x5 : (⟨S60, .f32⟩ : BufTy).Contents (Elt Ideal)) (x6 : (⟨S60x60, .f32⟩ : BufTy).Contents (Elt Ideal)) (x7 : (⟨S60, .f32⟩ : BufTy).Contents (Elt Ideal)) (x8 : (⟨S60x60, .f32⟩ : BufTy).Contents (Elt Ideal)) (x9 : (⟨S60, .f32⟩ : BufTy).Contents (Elt Ideal)) (x10 : (⟨S60x60, .f32⟩ : BufTy).Contents (Elt Ideal)) (x11 : (⟨S60, .f32⟩ : BufTy).Contents (Elt Ideal)) (x12 : (⟨S60x60, .f32⟩ : BufTy).Contents (Elt Ideal)) (x13 : (⟨S60, .f32⟩ : BufTy).Contents (Elt Ideal)) :
    val_main_v36 (F := Ideal) x0 x1 x2 x3 x4 x5 x6 x7 x8 x9 x10 x11 x12 x13 = hostLayer (val_main_v30 (F := Ideal) x0 x1 x2 x3 x4 x5 x6 x7 x8 x9 x10 x11) x12 x13 := rfl
theorem v41_eq (x0 : (⟨S1000000x1, .f32⟩ : BufTy).Contents (Elt Ideal)) (x1 : (⟨S1000000x1, .f32⟩ : BufTy).Contents (Elt Ideal)) (x2 : (⟨S60x2, .f32⟩ : BufTy).Contents (Elt Ideal)) (x3 : (⟨S60, .f32⟩ : BufTy).Contents (Elt Ideal)) (x4 : (⟨S60x60, .f32⟩ : BufTy).Contents (Elt Ideal)) (x5 : (⟨S60, .f32⟩ : BufTy).Contents (Elt Ideal)) (x6 : (⟨S60x60, .f32⟩ : BufTy).Contents (Elt Ideal)) (x7 : (⟨S60, .f32⟩ : BufTy).Contents (Elt Ideal)) (x8 : (⟨S60x60, .f32⟩ : BufTy).Contents (Elt Ideal)) (x9 : (⟨S60, .f32⟩ : BufTy).Contents (Elt Ideal)) (x10 : (⟨S60x60, .f32⟩ : BufTy).Contents (Elt Ideal)) (x11 : (⟨S60, .f32⟩ : BufTy).Contents (Elt Ideal)) (x12 : (⟨S60x60, .f32⟩ : BufTy).Contents (Elt Ideal)) (x13 : (⟨S60, .f32⟩ : BufTy).Contents (Elt Ideal)) (x14 : (⟨S1x60, .f32⟩ : BufTy).Contents (Elt Ideal)) (x15 : (⟨S1, .f32⟩ : BufTy).Contents (Elt Ideal)) :
    val_main_v41 (F := Ideal) x0 x1 x2 x3 x4 x5 x6 x7 x8 x9 x10 x11 x12 x13 x14 x15 = hostLast (val_main_v36 (F := Ideal) x0 x1 x2 x3 x4 x5 x6 x7 x8 x9 x10 x11 x12 x13) x14 x15 := rfl

/-! ## Each layer at an index -/

/-- The word of the reference's constant is the number one. -/
theorem one_f32 : Ideal.ofBits .f32 0x3F800000#32 = 1 := by
  simp [Ideal.ofBits, Ideal.ieee, -EReal.coe_mul]; norm_num

theorem ones_apply (i : S1000000x60.Idx) : ones i = 1 :=
  (broadcastInDim_apply _ bcast_S_S1000000x60 _ i (fun a => a.elim0) (fun a => a.elim0)).trans one_f32

/-- The reference's SiLU is `silu`, entry by entry. -/
theorem hostSilu_apply (z : FVec Ideal S1000000x60 .f32) (i : S1000000x60.Idx) : hostSilu z i = silu (z i) := by
  show z i * Ideal.div (ones i) (ones i + Ideal.exp (-(z i))) = z i * Ideal.logistic (z i)
  rw [ones_apply]
  rfl

/-- The repeated bias at `(n, o)` is the bias of feature `o`. -/
theorem biasRows_apply (b : FVec Ideal S60 .f32) (n : Fin 1000000) (o : Fin 60) : biasRows b (ix2 n o) = b (ix1 o) := by
  unfold biasRows
  refine (broadcastInDim_apply _ bcast_S1x60_S1000000x60_0_1 _ (ix2 n o) (ix2 (0 : Fin 1) o) (fun a => match a with
    | ⟨0, _⟩ => by show 0 = if (1 : Nat) = 1 then 0 else n.val; rw [if_pos rfl]
    | ⟨1, _⟩ => by show o.val = if (60 : Nat) = 1 then 0 else o.val; rw [if_neg (by decide)])).trans ?_
  exact broadcastInDim_apply _ bcast_S60_S1x60_1 b (ix2 (0 : Fin 1) o) (ix1 o) (fun a => match a with
    | ⟨0, _⟩ => by show o.val = if (60 : Nat) = 1 then 0 else o.val; rw [if_neg (by decide)])

/-- A hidden layer acts on each row as the dense layer on that row's feature vector. -/
theorem hostLayer_apply (H : FVec Ideal S1000000x60 .f32) (W : FVec Ideal S60x60 .f32) (b : FVec Ideal S60 .f32)
    (n : Fin 1000000) (o : Fin 60) :
    hostLayer H W b (ix2 n o) = dense (fun o k => W (ix2 o k)) (fun o => b (ix1 o)) (fun k => H (ix2 n k)) o := by
  have e : dot_S1000000x60_S60x60_S1000000x60_1_0_0_1_n_n
      = PlainDot.dims 1000000 60 60 dot_S1000000x60_S60x60_S1000000x60_1_0_0_1_n_n_wf := rfl
  have ht : ∀ k : Fin 60, transpose S60x60 [1, 0] W transposes_S60x60_S60x60_1_0 (ix2 k o) = W (ix2 o k) := fun k =>
    transpose_apply [1, 0] W transposes_S60x60_S60x60_1_0 (ix2 k o) (ix2 o k) (fun b => match b with
      | ⟨0, _⟩ => rfl
      | ⟨1, _⟩ => rfl)
  unfold hostLayer dense
  rw [hostSilu_apply]
  show silu (Host.dotGeneral (F := Ideal) dot_S1000000x60_S60x60_S1000000x60_1_0_0_1_n_n none H
    (transpose S60x60 [1, 0] W transposes_S60x60_S60x60_1_0) (ix2 n o) + biasRows b (ix2 n o)) = _
  rw [biasRows_apply, e]
  refine congrArg (fun s => silu (s + b (ix1 o))) ((PlainDot.dotGeneral_apply _ none .single H _ n o).trans
    (Finset.sum_congr rfl fun k _ => ?_))
  rw [ht k]
  exact mul_comm _ _

/-- The first layer acts on each row as the dense layer on that row's pair. -/
theorem hostLayer1_apply (x y : FVec Ideal S1000000x1 .f32) (W : FVec Ideal S60x2 .f32) (b : FVec Ideal S60 .f32)
    (n : Fin 1000000) (o : Fin 60) :
    hostLayer1 x y W b (ix2 n o)
      = dense (fun o k => W (ix2 o k)) (fun o => b (ix1 o)) (pair (x (ix2 n (0 : Fin 1))) (y (ix2 n (0 : Fin 1)))) o := by
  have e : dot_S1000000x2_S2x60_S1000000x60_1_0_0_1_n_n
      = PlainDot.dims 1000000 2 60 dot_S1000000x2_S2x60_S1000000x60_1_0_0_1_n_n_wf := rfl
  have ht : ∀ k : Fin 2, transpose S2x60 [1, 0] W transposes_S60x2_S2x60_1_0 (ix2 k o) = W (ix2 o k) := fun k =>
    transpose_apply [1, 0] W transposes_S60x2_S2x60_1_0 (ix2 k o) (ix2 o k) (fun b => match b with
      | ⟨0, _⟩ => rfl
      | ⟨1, _⟩ => rfl)
  have h0 : concatenate S1000000x2 1 [⟨S1000000x1, x⟩, ⟨S1000000x1, y⟩] concatenates_S1000000x1_S1000000x1_S1000000x2_d1
      (ix2 n (0 : Fin 2)) = x (ix2 n (0 : Fin 1)) :=
    concatenate_pair_apply_left (1 : Fin 2) x y concatenates_S1000000x1_S1000000x1_S1000000x2_d1 (ix2 n (0 : Fin 2)) rfl
      (ix2 n (0 : Fin 1)) (fun b => match b with
        | ⟨0, _⟩ => rfl
        | ⟨1, _⟩ => rfl)
  have h1 : concatenate S1000000x2 1 [⟨S1000000x1, x⟩, ⟨S1000000x1, y⟩] concatenates_S1000000x1_S1000000x1_S1000000x2_d1
      (ix2 n (1 : Fin 2)) = y (ix2 n (0 : Fin 1)) :=
    concatenate_pair_apply_right (1 : Fin 2) x y concatenates_S1000000x1_S1000000x1_S1000000x2_d1 (ix2 n (1 : Fin 2)) rfl rfl
      (ix2 n (0 : Fin 1)) (fun b => match b with
        | ⟨0, _⟩ => fun _ => rfl
        | ⟨1, _⟩ => fun hb => absurd rfl hb) rfl
  unfold hostLayer1 dense
  rw [hostSilu_apply]
  show silu (Host.dotGeneral (F := Ideal) dot_S1000000x2_S2x60_S1000000x60_1_0_0_1_n_n none
    (concatenate S1000000x2 1 [⟨S1000000x1, x⟩, ⟨S1000000x1, y⟩] concatenates_S1000000x1_S1000000x1_S1000000x2_d1)
    (transpose S2x60 [1, 0] W transposes_S60x2_S2x60_1_0) (ix2 n o) + biasRows b (ix2 n o)) = _
  rw [biasRows_apply, e]
  refine congrArg (fun s => silu (s + b (ix1 o))) ((PlainDot.dotGeneral_apply _ none .single _ _ n o).trans ?_)
  rw [Fin.sum_univ_two, Fin.sum_univ_two, h0, h1, ht 0, ht 1]
  show x (ix2 n (0 : Fin 1)) * W (ix2 o (0 : Fin 2)) + y (ix2 n (0 : Fin 1)) * W (ix2 o (1 : Fin 2))
    = W (ix2 o (0 : Fin 2)) * x (ix2 n (0 : Fin 1)) + W (ix2 o (1 : Fin 2)) * y (ix2 n (0 : Fin 1))
  rw [mul_comm (x (ix2 n (0 : Fin 1))), mul_comm (y (ix2 n (0 : Fin 1)))]

/-- The last layer at row `n` is the affine map on that row's feature vector. -/
theorem hostLast_apply (H : FVec Ideal S1000000x60 .f32) (w : FVec Ideal S1x60 .f32) (b : FVec Ideal S1 .f32)
    (n : Fin 1000000) :
    hostLast H w b (ix2 n (0 : Fin 1))
      = affine (fun k => w (ix2 (0 : Fin 1) k)) (b (ix1 (0 : Fin 1))) (fun k => H (ix2 n k)) := by
  have e : dot_S1000000x60_S60x1_S1000000x1_1_0_0_1_n_n
      = PlainDot.dims 1000000 60 1 dot_S1000000x60_S60x1_S1000000x1_1_0_0_1_n_n_wf := rfl
  have ht : ∀ k : Fin 60, transpose S60x1 [1, 0] w transposes_S1x60_S60x1_1_0 (ix2 k (0 : Fin 1)) = w (ix2 (0 : Fin 1) k) :=
    fun k => transpose_apply [1, 0] w transposes_S1x60_S60x1_1_0 (ix2 k (0 : Fin 1)) (ix2 (0 : Fin 1) k) (fun b => match b with
      | ⟨0, _⟩ => rfl
      | ⟨1, _⟩ => rfl)
  have hb : broadcastInDim S1000000x1 ![0, 1] bcast_S1x1_S1000000x1_0_1 (broadcastInDim S1x1 ![1] bcast_S1_S1x1_1 b)
      (ix2 n (0 : Fin 1)) = b (ix1 (0 : Fin 1)) := by
    refine (broadcastInDim_apply _ bcast_S1x1_S1000000x1_0_1 _ (ix2 n (0 : Fin 1)) (ix2 (0 : Fin 1) (0 : Fin 1))
      (fun a => match a with
        | ⟨0, _⟩ => by show 0 = if (1 : Nat) = 1 then 0 else n.val; rw [if_pos rfl]
        | ⟨1, _⟩ => by show 0 = if (1 : Nat) = 1 then 0 else 0; rw [if_pos rfl])).trans ?_
    exact broadcastInDim_apply _ bcast_S1_S1x1_1 b (ix2 (0 : Fin 1) (0 : Fin 1)) (ix1 (0 : Fin 1)) (fun a => match a with
      | ⟨0, _⟩ => by show 0 = if (1 : Nat) = 1 then 0 else 0; rw [if_pos rfl])
  unfold hostLast affine
  show Host.dotGeneral (F := Ideal) dot_S1000000x60_S60x1_S1000000x1_1_0_0_1_n_n none H
    (transpose S60x1 [1, 0] w transposes_S1x60_S60x1_1_0) (ix2 n (0 : Fin 1))
    + broadcastInDim S1000000x1 ![0, 1] bcast_S1x1_S1000000x1_0_1 (broadcastInDim S1x1 ![1] bcast_S1_S1x1_1 b)
      (ix2 n (0 : Fin 1)) = _
  rw [hb, e]
  refine congrArg (· + b (ix1 (0 : Fin 1))) ((PlainDot.dotGeneral_apply _ none .single H _ n (0 : Fin 1)).trans
    (Finset.sum_congr rfl fun k _ => ?_))
  rw [ht k]
  exact mul_comm _ _

/-! ## The reference's result is `G` -/

/-- THE REFERENCE'S RESULT: the array `G` of its sixteen arguments. -/
theorem result_eq (x0 : (⟨S1000000x1, .f32⟩ : BufTy).Contents (Elt Ideal)) (x1 : (⟨S1000000x1, .f32⟩ : BufTy).Contents (Elt Ideal)) (x2 : (⟨S60x2, .f32⟩ : BufTy).Contents (Elt Ideal)) (x3 : (⟨S60, .f32⟩ : BufTy).Contents (Elt Ideal)) (x4 : (⟨S60x60, .f32⟩ : BufTy).Contents (Elt Ideal)) (x5 : (⟨S60, .f32⟩ : BufTy).Contents (Elt Ideal)) (x6 : (⟨S60x60, .f32⟩ : BufTy).Contents (Elt Ideal)) (x7 : (⟨S60, .f32⟩ : BufTy).Contents (Elt Ideal)) (x8 : (⟨S60x60, .f32⟩ : BufTy).Contents (Elt Ideal)) (x9 : (⟨S60, .f32⟩ : BufTy).Contents (Elt Ideal)) (x10 : (⟨S60x60, .f32⟩ : BufTy).Contents (Elt Ideal)) (x11 : (⟨S60, .f32⟩ : BufTy).Contents (Elt Ideal)) (x12 : (⟨S60x60, .f32⟩ : BufTy).Contents (Elt Ideal)) (x13 : (⟨S60, .f32⟩ : BufTy).Contents (Elt Ideal)) (x14 : (⟨S1x60, .f32⟩ : BufTy).Contents (Elt Ideal)) (x15 : (⟨S1, .f32⟩ : BufTy).Contents (Elt Ideal)) :
    val_main_v41 (F := Ideal) x0 x1 x2 x3 x4 x5 x6 x7 x8 x9 x10 x11 x12 x13 x14 x15 = G x0 x1 x2 x3 x4 x5 x6 x7 x8 x9 x10 x11 x12 x13 x14 x15 := by
  funext i
  obtain ⟨n, u, rfl⟩ : ∃ (n : Fin 1000000) (u : Fin 1), i = ix2 n u := ⟨i 0, i 1, eq_ix2 i⟩
  obtain rfl : u = 0 := Subsingleton.elim _ _
  have h1 : (fun k => val_main_v6 (F := Ideal) x0 x1 x2 x3 (ix2 n k))
      = dense (fun o k => x2 (ix2 o k)) (fun o => x3 (ix1 o)) (pair (x0 (ix2 n (0 : Fin 1))) (x1 (ix2 n (0 : Fin 1)))) :=
    funext fun o => by rw [v6_eq]; exact hostLayer1_apply x0 x1 x2 x3 n o
  have h2 : (fun k => val_main_v12 (F := Ideal) x0 x1 x2 x3 x4 x5 (ix2 n k))
      = dense (fun o k => x4 (ix2 o k)) (fun o => x5 (ix1 o)) (fun k => val_main_v6 (F := Ideal) x0 x1 x2 x3 (ix2 n k)) :=
    funext fun o => by rw [v12_eq]; exact hostLayer_apply _ x4 x5 n o
  have h3 : (fun k => val_main_v18 (F := Ideal) x0 x1 x2 x3 x4 x5 x6 x7 (ix2 n k))
      = dense (fun o k => x6 (ix2 o k)) (fun o => x7 (ix1 o)) (fun k => val_main_v12 (F := Ideal) x0 x1 x2 x3 x4 x5 (ix2 n k)) :=
    funext fun o => by rw [v18_eq]; exact hostLayer_apply _ x6 x7 n o
  have h4 : (fun k => val_main_v24 (F := Ideal) x0 x1 x2 x3 x4 x5 x6 x7 x8 x9 (ix2 n k))
      = dense (fun o k => x8 (ix2 o k)) (fun o => x9 (ix1 o)) (fun k => val_main_v18 (F := Ideal) x0 x1 x2 x3 x4 x5 x6 x7 (ix2 n k)) :=
    funext fun o => by rw [v24_eq]; exact hostLayer_apply _ x8 x9 n o
  have h5 : (fun k => val_main_v30 (F := Ideal) x0 x1 x2 x3 x4 x5 x6 x7 x8 x9 x10 x11 (ix2 n k))
      = dense (fun o k => x10 (ix2 o k)) (fun o => x11 (ix1 o)) (fun k => val_main_v24 (F := Ideal) x0 x1 x2 x3 x4 x5 x6 x7 x8 x9 (ix2 n k)) :=
    funext fun o => by rw [v30_eq]; exact hostLayer_apply _ x10 x11 n o
  have h6 : (fun k => val_main_v36 (F := Ideal) x0 x1 x2 x3 x4 x5 x6 x7 x8 x9 x10 x11 x12 x13 (ix2 n k))
      = dense (fun o k => x12 (ix2 o k)) (fun o => x13 (ix1 o)) (fun k => val_main_v30 (F := Ideal) x0 x1 x2 x3 x4 x5 x6 x7 x8 x9 x10 x11 (ix2 n k)) :=
    funext fun o => by rw [v36_eq]; exact hostLayer_apply _ x12 x13 n o
  rw [v41_eq, hostLast_apply, h6, h5, h4, h3, h2, h1]
  rfl

end Cert.ReferenceIdeal.RefValue

end
-- ==== Proof.lean ====
/-
  A seven-layer perceptron on a million data rows, computed two ways.

  Each data row is a pair (x n, y n). The network applies six dense layers with SiLU (z * logistic z, with
  logistic z = 1 / (1 + exp (-z))) — from two features to sixty, then five times from sixty to sixty — and a last
  affine layer from sixty features to one number; rows do not interact (`Cert.Mlp`: `net`, and the result array `G`
  whose entry (n, 0) is the network at row n's pair).

  The reference keeps the rows down its arrays and computes H · Wᵀ + b layer by layer, spelling SiLU out as
  z * (1 / (1 + exp (-z))) (RefValue). The kernel lays the rows along the lanes instead: it turns x and y into rows
  of length 1015808 = 62 · 16384 padded with zeros, computes W · H + b on [60, 16384] blocks at each of 62 grid
  points — the five hidden products with operands rounded to bf16, which on extended reals is the identity — and
  the host keeps the first million entries of the output row as a column (KernelPayload, KernelEntry, KernelValue,
  KernelResult). Entry by entry the two products differ only in the order of the two factors of each term,
  W (o, k) * h k against h k * W (o, k), and multiplication of extended reals is commutative; logistic is the same
  function on both sides. So both programs end with `G` of their arguments, and no finiteness of the inputs is used.

  The three frame claims are the generated frame runs (the reference's is its generated run with the result
  dropped); the idealized kernel is the kernel's own text read over the extended reals, no operation rewritten.
-/
import proofs.«180051_j45535243272834_2_alg».proof.Defs
import proofs.«180051_j45535243272834_2_alg».proof.Proof.Gen.Kernel
import proofs.«180051_j45535243272834_2_alg».proof.Proof.Gen.Kernel.Skeleton
import proofs.«180051_j45535243272834_2_alg».proof.Proof.Gen.Kernel.Launch
import proofs.«180051_j45535243272834_2_alg».proof.Proof.Gen.Kernel.Points
import proofs.«180051_j45535243272834_2_alg».proof.Proof.Gen.Kernel.Frame
import proofs.«180051_j45535243272834_2_alg».proof.Proof.Gen.KernelIdeal
import proofs.«180051_j45535243272834_2_alg».proof.Proof.Gen.KernelIdeal.Skeleton
import proofs.«180051_j45535243272834_2_alg».proof.Proof.Gen.KernelIdeal.Launch
import proofs.«180051_j45535243272834_2_alg».proof.Proof.Gen.KernelIdeal.Points
import proofs.«180051_j45535243272834_2_alg».proof.Proof.Gen.KernelIdeal.Frame
import proofs.«180051_j45535243272834_2_alg».proof.Proof.Gen.ReferenceIdeal
import proofs.«180051_j45535243272834_2_alg».proof.Proof.Gen.Pre_finite_inputs
import proofs.«180051_j45535243272834_2_alg».proof.Proof.Gen.ReferenceIdeal.Run
import proofs.«180051_j45535243272834_2_alg».proof.Proof.Gen.ReferenceIdeal.Read
import proofs.«180051_j45535243272834_2_alg».proof.Proof.KernelResult
import proofs.«180051_j45535243272834_2_alg».proof.Proof.RefValue
import Idealize.ShloMosaic.Adequacy
import Idealize.ShloMosaic.Init

noncomputable section

namespace Cert.Proof

open Idealize.ShloMosaic Idealize.SL.Sem

/-- The kernel's program as printed runs, its arguments unchanged. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs, its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the sixteen arguments both programs end with the array `G` of those arguments. -/
theorem algebraic : Cert.algebraic_KernelIdeal_ReferenceIdeal := by
  intro m ρ m' ρ' _ hagree
  refine ⟨fun c => Cert.Mlp.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13, a14, a15⟩ := hagree c
  rw [Cert.ReferenceIdeal.Read.val_main_v41_eq, Cert.ReferenceIdeal.RefValue.result_eq,
    a0, a1, a2, a3, a4, a5, a6, a7, a8, a9, a10, a11, a12, a13, a14, a15]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
